-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩
abbrev S50000x40 : Shape := ⟨2, ![50000, 40]⟩

abbrev nBuf : Space → Nat
  | .hbm => 75
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S_, .f32⟩
  | .hbm, ⟨23, _⟩ => ⟨S800000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .bf16⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S50000x128, .bf16⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .bf16⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S_, .i32⟩
  | .hbm, ⟨67, _⟩ => ⟨S_, .f32⟩
  | .hbm, ⟨68, _⟩ => ⟨S128x128, .f32⟩
  | .hbm, ⟨69, _⟩ => ⟨S_, .i32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S50000x128, .f32⟩
  | .hbm, ⟨74, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S2000x1, .f32⟩
  | .local _ .vmem, ⟨22, _⟩ => ⟨S2000x1, .f32⟩
  | .local _ .vmem, ⟨23, _⟩ => ⟨S2000x128, .f32⟩
  | .local _ .vmem, ⟨24, _⟩ => ⟨S2000x128, .f32⟩
  | .local _ .vmem, ⟨25, _⟩ => ⟨S2000x128, .bf16⟩
  | .local _ .vmem, ⟨26, _⟩ => ⟨S2000x128, .bf16⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_call0_v0 : Ref sig .tc := ⟨.hbm, 67, rfl⟩
abbrev main_v45 : Ref sig .tc := ⟨.hbm, 68, rfl⟩
abbrev main_c_10 : Ref sig .tc := ⟨.hbm, 69, rfl⟩
abbrev main_call1_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  pads_S128x40_S128x128_000_0880 : S128x40.Pads (![0, 0] : Fin 2 → Nat) ![0, 88] ![0, 0] S128x128
  h_S_ : 0 < S_.numel
  pads_S40_S128_0880 : S40.Pads (![0] : Fin 1 → Nat) ![88] ![0] S128
  shapeCasts_S128x128_S128x128 : S128x128.ShapeCasts S128x128
  slices_S50000x128_S50000x40_0_0 : S50000x128.Slices ![0, 0] S50000x40
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .bf16 = 32 ∨ (Rect.block (s := S50000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .bf16 = 32 ∨ (Rect.block (s := S50000x128) S2000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31_0) S2000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v31_1) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v42) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v44) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S_, .f32⟩
  | .hbm, ⟨23, _⟩ => ⟨S800000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000, .f32⟩
  | .hbm, ⟨95, _⟩ => ⟨S800000, .f32⟩
  | .hbm, ⟨96, _⟩ => ⟨S800000x1, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S800000x128, .f32⟩
  | .hbm, ⟨107, _⟩ => ⟨S800000x128, .f32⟩
  | .hbm, ⟨108, _⟩ => ⟨S_, .f32⟩
  | .hbm, ⟨109, _⟩ => ⟨S50000x128, .f32⟩
  | .hbm, ⟨110, _⟩ => ⟨S800000x1, .i32⟩
  | .hbm, ⟨111, _⟩ => ⟨S50000x128, .f32⟩
  | .hbm, ⟨112, _⟩ => ⟨S50000, .f32⟩
  | .hbm, ⟨113, _⟩ => ⟨S50000x1, .f32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | .hbm, ⟨120, _⟩ => ⟨S_, .f32⟩
  | .hbm, ⟨121, _⟩ => ⟨S50000x128, .f32⟩
  | .hbm, ⟨122, _⟩ => ⟨S50000x128, .f32⟩
  | .hbm, ⟨123, _⟩ => ⟨S50000x40, .f32⟩
  | .hbm, ⟨124, _⟩ => ⟨S1x40, .f32⟩
  | .hbm, ⟨125, _⟩ => ⟨S50000x40, .f32⟩
  | .hbm, ⟨126, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_call1_cst : Ref sig .tc := ⟨.hbm, 120, rfl⟩
abbrev main_call1_v0 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's run with its result kept.

  The program is five pipelined regions among stretches of host operations. Every weakly fair execution from the
  launch memory terminates without a fault, and at the end the result buffer holds what the fold of the segments
  leaves there (`W14`: each host stretch applied to the contents before it, each region's arrays at what its
  write-backs leave), while the eight argument arrays are as launched.
-/
import proofs.«160503_j74345883894179_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's last contents, the arguments as launched. -/
theorem run_result : θ_run defs (onTc (τ := τ) (main (F := F))) ⟨m, fun _ => 0, ρ⟩ (fun r => ∀ c : Dev nD,
      r.2.mem ((c.tc : Thread nD τ).loc main_v49) = W14 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v49 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.Result

end
-- ==== Proof.Tile0.lean ====
/-
  The first region of a layer: project the node features and scale each row by its node's factor.

  Over the whole arrays the region computes, at node r and feature q,
      (Σ_k x[r, k] · w[k, q]) · d[r, 0]
  where d is the column of node factors. The grid cuts the 50000 rows into 25 blocks of 2000; point t reads rows
  2000·t … 2000·t + 1999 of x and of d and the whole of w, and writes the same rows of both results (one kept in the
  wide format and one in the narrow one: at exact arithmetic the change of format is the identity, so the two results
  are the same function). The blocks are restrictions of that one function and together cover every row, so after the
  region each result array IS that function of the arrays the region found.
-/
import proofs.«160503_j74345883894179_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Tiles

open Cert.KernelIdeal Cert.KernelIdeal.Gen
open Idealize.ShloMosaic Idealize.ShloMosaic.ValueIdx Idealize.ShloMosaic.TcCoe Idealize.SL.Sem
open Idealize.ShloMosaic.Pipeline (Dat Cfg Window)

theorem origin2 : (![0, 0] : Fin 2 → Nat) = fun _ => 0 := funext fun a => by fin_cases a <;> rfl

/-- The node (row) and the feature (column) of an entry of a [50000, 128] array. -/
abbrev node (i : S50000x128.Idx) : Fin 50000 := ⟨(i 0).val, (i 0).isLt⟩
abbrev feat (i : S50000x128.Idx) : Fin 128 := ⟨(i 1).val, (i 1).isLt⟩

/-- Projected features scaled by node, as one function of the whole arrays. -/
def scaledProj (x : S50000x128.Idx → EReal) (w : S128x128.Idx → EReal) (d : S50000x1.Idx → EReal) :
    S50000x128.Idx → EReal :=
  fun i => (∑ k : Fin 128, x (ix2 (node i) k) * w (ix2 k (feat i))) * d (ix2 (node i) (0 : Fin 1))

/-- The row coordinate of the left operand's index is the output's row. -/
theorem tile_lhs_row (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The column coordinate of the right operand's index is the output's column. -/
theorem tile_rhs_col (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A tile's product with the weights, into the zero accumulator, at an entry: the sum over the contracted axis. -/
theorem tile_matmul_apply {φ₁ φ₂ : FTy} (a : FVec Ideal S2000x128 φ₁) (b : FVec Ideal S128x128 φ₂) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun ax => Fin.ext (by
      match ax with
      | ⟨0, _⟩ => exact tile_lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun ax => Fin.ext (by
      match ax with
      | ⟨0, _⟩ => exact (dot_S2000x128_S128x128_S2000x128_1_0_0_1_n_n.rhsIdx_val_of_single rfl _ _).trans hk
      | ⟨1, _⟩ => exact tile_rhs_col _ _)
  rw [el, er]

/-- A [2000, 1] column stretched along the features reads, at (p, q), the column at p. -/
theorem column_stretch_apply (v : S2000x1.Idx → EReal) (h : S2000x1.Broadcasts S2000x128) (p : Fin 2000) (q : Fin 128) :
    broadcastTo S2000x128 v h (ix2 p q) = v (ix2 p (0 : Fin 1)) := by
  refine broadcastTo_apply v h _ _ fun a => ?_
  match a with
  | ⟨0, _⟩ =>
    show p.val = if (2000 : ℕ) = 1 then 0 else p.val
    rw [if_neg (by decide)]
  | ⟨1, _⟩ => rfl

/-- The body's wide result at an entry of the tile. -/
theorem proj_payload_apply (x0 : Vec Ideal S2000x128 .f32) (x1 : Vec Ideal S128x128 .f32) (x2 : Vec Ideal S2000x1 .f32)
    (p : Fin 2000) (q : Fin 128) :
    k0_pay1 x0 x1 x2 (ix2 p q) = (∑ k : Fin 128, x0 (ix2 p k) * x1 (ix2 k q)) * x2 (ix2 p (0 : Fin 1)) := by
  unfold k0_pay1
  rw [mulf_apply, tile_matmul_apply, shapeCast_self, column_stretch_apply]
  rfl

/-! ## From the blocks to the arrays -/

/-- The printed index maps over the 25 grid points: the row blocks of x, of d and of both results move together, the
    weights stay at block (0, 0), and every column block is block 0. -/
theorem proj_blocks : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_4.index t (0 : Fin 2) = win0_3.index t (0 : Fin 2) ∧ win0_4.index t (1 : Fin 2) = 0
    ∧ win0_3.index t (1 : Fin 2) = 0 ∧ win0_3.index t (0 : Fin 2) < 25 :=
  (by decide +kernel : ∀ t : Fin grid0.N, _)

/-- Every row block is some point's. -/
theorem proj_block_onto : ∀ r : Fin 25, ∃ t : Fin cfg0.N, win0_3.index t (0 : Fin 2) = r.val ∧ win0_4.index t (0 : Fin 2) = r.val :=
  (by decide +kernel : ∀ r : Fin 25, ∃ t : Fin grid0.N, _)

/-- A tile of the whole-array function: when row p of the tile is row `node i` of x and of d, and column q is column
    `feat i` of w, the body's result at (p, q) is the whole-array function at i. -/
theorem proj_tile (X : S50000x128.Idx → EReal) (Wt : S128x128.Idx → EReal) (Dc : S50000x1.Idx → EReal)
    (x0 : Vec Ideal S2000x128 .f32) (x1 : Vec Ideal S128x128 .f32) (x2 : Vec Ideal S2000x1 .f32)
    (p : Fin 2000) (q : Fin 128) (i : S50000x128.Idx)
    (h0 : ∀ k : Fin 128, x0 (ix2 p k) = X (ix2 (node i) k))
    (h1 : ∀ k : Fin 128, x1 (ix2 k q) = Wt (ix2 k (feat i)))
    (h2 : x2 (ix2 p (0 : Fin 1)) = Dc (ix2 (node i) (0 : Fin 1))) :
    k0_pay1 x0 x1 x2 (ix2 p q) = scaledProj X Wt Dc i := by
  rw [proj_payload_apply]
  unfold scaledProj
  rw [h2]
  exact congrArg (· * _) (Finset.sum_congr rfl fun k _ => by rw [h0 k, h1 k])

section
variable (V : (c : Dev nD) → (b : Ref sig .tc) → Buf (Elt Ideal) ((c : Thread nD τ).loc b))

/-- What point t writes back to the wide result is block t of the whole-array function of the arrays as found. -/
theorem proj_flushed_wide (c : Dev nD) (t : Fin cfg0.N) :
    (dat0 (F := Ideal) V c).flushed 3 t
      = ((cfg0.win 3).blk t).view.read (Elt Ideal) (scaledProj (V c main_arg0) (V c main_arg2) (V c main_v16)) := by
  show (cfg0.win 3).cut (grid0.coords t) ((dat0 V c).after 3 t) = _
  rw [after0_3]
  unfold out0_3
  rw [View.canon_unit_zero origin2]
  simp only [View.ld_unit_zero (S := S2000x128) origin2, View.ld_unit_zero (S := S128x128) origin2,
    View.ld_unit_zero (S := S2000x1) origin2]
  obtain ⟨e00, e01, e10, e11, e20, e21, e40, e41, e31, e3lt⟩ := proj_blocks t
  funext j
  have hj : j = ix2 (⟨(j 0).val, (j 0).isLt⟩ : Fin 2000) (⟨(j 1).val, (j 1).isLt⟩ : Fin 128) :=
    funext fun a => by match a with | ⟨0, _⟩ => rfl | ⟨1, _⟩ => rfl
  show k0_pay1 (iblk0 V c 0 t) (iblk0 V c 1 t) (iblk0 V c 2 t) j
    = scaledProj (V c main_arg0) (V c main_arg2) (V c main_v16) (((cfg0.win 3).blk t).view.emb j)
  refine (congrArg (k0_pay1 (iblk0 V c 0 t) (iblk0 V c 1 t) (iblk0 V c 2 t)) hj).trans ?_
  refine proj_tile _ _ _ _ _ _ _ _ (((cfg0.win 3).blk t).view.emb j) (fun k => ?_) (fun k => ?_) ?_
  · show V c main_arg0 (((cfg0.win 0).blk t).view.emb (ix2 (⟨(j 0).val, (j 0).isLt⟩ : Fin 2000) k)) = _
    refine congrArg (V c main_arg0) (funext fun a => Fin.ext ?_)
    match a with
    | ⟨0, _⟩ =>
      show win0_0.index t (0 : Fin 2) * 2000 + 1 * (j 0).val = win0_3.index t (0 : Fin 2) * 2000 + 1 * (j 0).val
      omega
    | ⟨1, _⟩ =>
      show win0_0.index t (1 : Fin 2) * 128 + 1 * k.val = k.val
      omega
  · show V c main_arg2 (((cfg0.win 1).blk t).view.emb (ix2 k (⟨(j 1).val, (j 1).isLt⟩ : Fin 128))) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_3.index t (1 : Fin 2) * 128 + 1 * (j 1).val
      omega
  · show V c main_v16 (((cfg0.win 2).blk t).view.emb (ix2 (⟨(j 0).val, (j 0).isLt⟩ : Fin 2000) (0 : Fin 1))) = _
    refine congrArg (V c main_v16) (funext fun a => Fin.ext ?_)
    match a with
    | ⟨0, _⟩ =>
      show win0_2.index t (0 : Fin 2) * 2000 + 1 * (j 0).val = win0_3.index t (0 : Fin 2) * 2000 + 1 * (j 0).val
      omega
    | ⟨1, _⟩ =>
      show win0_2.index t (1 : Fin 2) * 1 + 1 * 0 = 0
      omega

/-- The same for the narrow result: at exact arithmetic the change of format is the identity. -/
theorem proj_flushed_narrow (c : Dev nD) (t : Fin cfg0.N) :
    (dat0 (F := Ideal) V c).flushed 4 t
      = ((cfg0.win 4).blk t).view.read (Elt Ideal) (scaledProj (V c main_arg0) (V c main_arg2) (V c main_v16)) := by
  show (cfg0.win 4).cut (grid0.coords t) ((dat0 V c).after 4 t) = _
  rw [after0_4]
  unfold out0_4
  rw [View.canon_unit_zero origin2]
  simp only [View.ld_unit_zero (S := S2000x128) origin2, View.ld_unit_zero (S := S128x128) origin2,
    View.ld_unit_zero (S := S2000x1) origin2]
  obtain ⟨e00, e01, e10, e11, e20, e21, e40, e41, e31, e3lt⟩ := proj_blocks t
  funext j
  have hj : j = ix2 (⟨(j 0).val, (j 0).isLt⟩ : Fin 2000) (⟨(j 1).val, (j 1).isLt⟩ : Fin 128) :=
    funext fun a => by match a with | ⟨0, _⟩ => rfl | ⟨1, _⟩ => rfl
  show k0_pay1 (iblk0 V c 0 t) (iblk0 V c 1 t) (iblk0 V c 2 t) j
    = scaledProj (V c main_arg0) (V c main_arg2) (V c main_v16) (((cfg0.win 4).blk t).view.emb j)
  refine (congrArg (k0_pay1 (iblk0 V c 0 t) (iblk0 V c 1 t) (iblk0 V c 2 t)) hj).trans ?_
  refine proj_tile _ _ _ _ _ _ _ _ (((cfg0.win 4).blk t).view.emb j) (fun k => ?_) (fun k => ?_) ?_
  · show V c main_arg0 (((cfg0.win 0).blk t).view.emb (ix2 (⟨(j 0).val, (j 0).isLt⟩ : Fin 2000) k)) = _
    refine congrArg (V c main_arg0) (funext fun a => Fin.ext ?_)
    match a with
    | ⟨0, _⟩ =>
      show win0_0.index t (0 : Fin 2) * 2000 + 1 * (j 0).val = win0_4.index t (0 : Fin 2) * 2000 + 1 * (j 0).val
      omega
    | ⟨1, _⟩ =>
      show win0_0.index t (1 : Fin 2) * 128 + 1 * k.val = k.val
      omega
  · show V c main_arg2 (((cfg0.win 1).blk t).view.emb (ix2 k (⟨(j 1).val, (j 1).isLt⟩ : Fin 128))) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_4.index t (1 : Fin 2) * 128 + 1 * (j 1).val
      omega
  · show V c main_v16 (((cfg0.win 2).blk t).view.emb (ix2 (⟨(j 0).val, (j 0).isLt⟩ : Fin 2000) (0 : Fin 1))) = _
    refine congrArg (V c main_v16) (funext fun a => Fin.ext ?_)
    match a with
    | ⟨0, _⟩ =>
      show win0_2.index t (0 : Fin 2) * 2000 + 1 * (j 0).val = win0_4.index t (0 : Fin 2) * 2000 + 1 * (j 0).val
      omega
    | ⟨1, _⟩ =>
      show win0_2.index t (1 : Fin 2) * 1 + 1 * 0 = 0
      omega

/-- An entry is in point t's block of the wide result iff each coordinate is in the block's range. -/
theorem proj_mem_wide (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v17_0).slice (win0_3.rect t)).set ↔ _
  rw [View.set_slice_whole, Rect.mem_set_unit]
  exact Iff.rfl

theorem proj_mem_narrow (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v17_1).slice (win0_4.rect t)).set ↔ _
  rw [View.set_slice_whole, Rect.mem_set_unit]
  exact Iff.rfl

/-- The blocks cover every entry: row r lies in the block of point r / 2000. -/
theorem proj_cover_wide (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht, -⟩ := proj_block_onto ⟨(i 0).val / 2000, by omega⟩
  obtain ⟨e00, e01, e10, e11, e20, e21, e40, e41, e31, e3lt⟩ := proj_blocks t
  have ht' : win0_3.index t (0 : Fin 2) = (i 0).val / 2000 := ht
  refine ⟨t, flush0_3 t, ?_⟩
  rw [proj_mem_wide]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

theorem proj_cover_narrow (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, -, ht⟩ := proj_block_onto ⟨(i 0).val / 2000, by omega⟩
  obtain ⟨e00, e01, e10, e11, e20, e21, e40, e41, e31, e3lt⟩ := proj_blocks t
  have ht' : win0_4.index t (0 : Fin 2) = (i 0).val / 2000 := ht
  refine ⟨t, flush0_4 t, ?_⟩
  rw [proj_mem_narrow]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 128 ≤ (i 1).val ∧ (i 1).val < win0_4.index t (1 : Fin 2) * 128 + 128
    omega

/-- AFTER THE REGION both result arrays are the whole-array function of the arrays the region found. -/
theorem proj_wide (c : Dev nD) :
    (dat0 (F := Ideal) V c).arrAt 3 cfg0.N = scaledProj (V c main_arg0) (V c main_arg2) (V c main_v16) :=
  (dat0 V c).arrAt_eq_of_cover 3 _ (fun t _ => proj_flushed_wide V c t) proj_cover_wide

theorem proj_narrow (c : Dev nD) :
    (dat0 (F := Ideal) V c).arrAt 4 cfg0.N = scaledProj (V c main_arg0) (V c main_arg2) (V c main_v16) :=
  (dat0 V c).arrAt_eq_of_cover 4 _ (fun t _ => proj_flushed_narrow V c t) proj_cover_narrow
end

end Cert.KernelIdeal.Tiles

end
-- ==== Proof.Tile2.lean ====
/-
  The first region of the second layer: the same projection and scaling by node as in the first layer, now of the
  first layer's output h1 with the second weight matrix. Point t reads rows 2000·t … of h1 and of the factor column and
  the whole of the weights, and writes the same rows of both results; the blocks are restrictions of the one
  whole-array function (Σ_k h1[r, k] · w[k, q]) · d[r, 0] and cover every row.
-/
import proofs.«160503_j74345883894179_2_alg».proof.Proof.Tile0

set_option maxRecDepth 16384

noncomputable section

namespace Cert.KernelIdeal.Tiles.Second

open Cert.KernelIdeal Cert.KernelIdeal.Gen Cert.KernelIdeal.Tiles
open Idealize.ShloMosaic Idealize.ShloMosaic.ValueIdx Idealize.ShloMosaic.TcCoe Idealize.SL.Sem
open Idealize.ShloMosaic.Pipeline (Dat Cfg Window)

/-- The body's wide result at an entry of the tile. -/
theorem proj_payload_apply (x0 : Vec Ideal S2000x128 .f32) (x1 : Vec Ideal S128x128 .f32) (x2 : Vec Ideal S2000x1 .f32)
    (p : Fin 2000) (q : Fin 128) :
    k2_pay1 x0 x1 x2 (ix2 p q) = (∑ k : Fin 128, x0 (ix2 p k) * x1 (ix2 k q)) * x2 (ix2 p (0 : Fin 1)) := by
  unfold k2_pay1
  rw [mulf_apply, tile_matmul_apply]
  simp only [shapeCast_self]
  rw [column_stretch_apply]
  rfl

/-! ## From the blocks to the arrays -/

/-- The printed index maps over the 25 grid points: the row blocks of x, of d and of both results move together, the
    weights stay at block (0, 0), and every column block is block 0. -/
theorem proj_blocks : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_4.index t (0 : Fin 2) = win2_3.index t (0 : Fin 2) ∧ win2_4.index t (1 : Fin 2) = 0
    ∧ win2_3.index t (1 : Fin 2) = 0 ∧ win2_3.index t (0 : Fin 2) < 25 :=
  (by decide +kernel : ∀ t : Fin grid2.N, _)

/-- Every row block is some point's. -/
theorem proj_block_onto : ∀ r : Fin 25, ∃ t : Fin cfg2.N, win2_3.index t (0 : Fin 2) = r.val ∧ win2_4.index t (0 : Fin 2) = r.val :=
  (by decide +kernel : ∀ r : Fin 25, ∃ t : Fin grid2.N, _)

/-- A tile of the whole-array function: when row p of the tile is row `node i` of x and of d, and column q is column
    `feat i` of w, the body's result at (p, q) is the whole-array function at i. -/
theorem proj_tile (X : S50000x128.Idx → EReal) (Wt : S128x128.Idx → EReal) (Dc : S50000x1.Idx → EReal)
    (x0 : Vec Ideal S2000x128 .f32) (x1 : Vec Ideal S128x128 .f32) (x2 : Vec Ideal S2000x1 .f32)
    (p : Fin 2000) (q : Fin 128) (i : S50000x128.Idx)
    (h0 : ∀ k : Fin 128, x0 (ix2 p k) = X (ix2 (node i) k))
    (h1 : ∀ k : Fin 128, x1 (ix2 k q) = Wt (ix2 k (feat i)))
    (h2 : x2 (ix2 p (0 : Fin 1)) = Dc (ix2 (node i) (0 : Fin 1))) :
    k2_pay1 x0 x1 x2 (ix2 p q) = scaledProj X Wt Dc i := by
  rw [proj_payload_apply]
  unfold scaledProj
  rw [h2]
  exact congrArg (· * _) (Finset.sum_congr rfl fun k _ => by rw [h0 k, h1 k])

section
variable (V : (c : Dev nD) → (b : Ref sig .tc) → Buf (Elt Ideal) ((c : Thread nD τ).loc b))

/-- What point t writes back to the wide result is block t of the whole-array function of the arrays as found. -/
theorem proj_flushed_wide (c : Dev nD) (t : Fin cfg2.N) :
    (dat2 (F := Ideal) V c).flushed 3 t
      = ((cfg2.win 3).blk t).view.read (Elt Ideal) (scaledProj (V c main_v30) (V c main_arg4) (V c main_v16)) := by
  show (cfg2.win 3).cut (grid2.coords t) ((dat2 V c).after 3 t) = _
  rw [after2_3]
  unfold out2_3
  rw [View.canon_unit_zero origin2]
  simp only [View.ld_unit_zero (S := S2000x128) origin2, View.ld_unit_zero (S := S128x128) origin2,
    View.ld_unit_zero (S := S2000x1) origin2]
  obtain ⟨e00, e01, e10, e11, e20, e21, e40, e41, e31, e3lt⟩ := proj_blocks t
  funext j
  have hj : j = ix2 (⟨(j 0).val, (j 0).isLt⟩ : Fin 2000) (⟨(j 1).val, (j 1).isLt⟩ : Fin 128) :=
    funext fun a => by match a with | ⟨0, _⟩ => rfl | ⟨1, _⟩ => rfl
  show k2_pay1 (iblk2 V c 0 t) (iblk2 V c 1 t) (iblk2 V c 2 t) j
    = scaledProj (V c main_v30) (V c main_arg4) (V c main_v16) (((cfg2.win 3).blk t).view.emb j)
  refine (congrArg (k2_pay1 (iblk2 V c 0 t) (iblk2 V c 1 t) (iblk2 V c 2 t)) hj).trans ?_
  refine proj_tile _ _ _ _ _ _ _ _ (((cfg2.win 3).blk t).view.emb j) (fun k => ?_) (fun k => ?_) ?_
  · show V c main_v30 (((cfg2.win 0).blk t).view.emb (ix2 (⟨(j 0).val, (j 0).isLt⟩ : Fin 2000) k)) = _
    refine congrArg (V c main_v30) (funext fun a => Fin.ext ?_)
    match a with
    | ⟨0, _⟩ =>
      show win2_0.index t (0 : Fin 2) * 2000 + 1 * (j 0).val = win2_3.index t (0 : Fin 2) * 2000 + 1 * (j 0).val
      omega
    | ⟨1, _⟩ =>
      show win2_0.index t (1 : Fin 2) * 128 + 1 * k.val = k.val
      omega
  · show V c main_arg4 (((cfg2.win 1).blk t).view.emb (ix2 k (⟨(j 1).val, (j 1).isLt⟩ : Fin 128))) = _
    refine congrArg (V c main_arg4) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_3.index t (1 : Fin 2) * 128 + 1 * (j 1).val
      omega
  · show V c main_v16 (((cfg2.win 2).blk t).view.emb (ix2 (⟨(j 0).val, (j 0).isLt⟩ : Fin 2000) (0 : Fin 1))) = _
    refine congrArg (V c main_v16) (funext fun a => Fin.ext ?_)
    match a with
    | ⟨0, _⟩ =>
      show win2_2.index t (0 : Fin 2) * 2000 + 1 * (j 0).val = win2_3.index t (0 : Fin 2) * 2000 + 1 * (j 0).val
      omega
    | ⟨1, _⟩ =>
      show win2_2.index t (1 : Fin 2) * 1 + 1 * 0 = 0
      omega

/-- The same for the narrow result: at exact arithmetic the change of format is the identity. -/
theorem proj_flushed_narrow (c : Dev nD) (t : Fin cfg2.N) :
    (dat2 (F := Ideal) V c).flushed 4 t
      = ((cfg2.win 4).blk t).view.read (Elt Ideal) (scaledProj (V c main_v30) (V c main_arg4) (V c main_v16)) := by
  show (cfg2.win 4).cut (grid2.coords t) ((dat2 V c).after 4 t) = _
  rw [after2_4]
  unfold out2_4
  rw [View.canon_unit_zero origin2]
  simp only [View.ld_unit_zero (S := S2000x128) origin2, View.ld_unit_zero (S := S128x128) origin2,
    View.ld_unit_zero (S := S2000x1) origin2]
  obtain ⟨e00, e01, e10, e11, e20, e21, e40, e41, e31, e3lt⟩ := proj_blocks t
  funext j
  have hj : j = ix2 (⟨(j 0).val, (j 0).isLt⟩ : Fin 2000) (⟨(j 1).val, (j 1).isLt⟩ : Fin 128) :=
    funext fun a => by match a with | ⟨0, _⟩ => rfl | ⟨1, _⟩ => rfl
  show k2_pay1 (iblk2 V c 0 t) (iblk2 V c 1 t) (iblk2 V c 2 t) j
    = scaledProj (V c main_v30) (V c main_arg4) (V c main_v16) (((cfg2.win 4).blk t).view.emb j)
  refine (congrArg (k2_pay1 (iblk2 V c 0 t) (iblk2 V c 1 t) (iblk2 V c 2 t)) hj).trans ?_
  refine proj_tile _ _ _ _ _ _ _ _ (((cfg2.win 4).blk t).view.emb j) (fun k => ?_) (fun k => ?_) ?_
  · show V c main_v30 (((cfg2.win 0).blk t).view.emb (ix2 (⟨(j 0).val, (j 0).isLt⟩ : Fin 2000) k)) = _
    refine congrArg (V c main_v30) (funext fun a => Fin.ext ?_)
    match a with
    | ⟨0, _⟩ =>
      show win2_0.index t (0 : Fin 2) * 2000 + 1 * (j 0).val = win2_4.index t (0 : Fin 2) * 2000 + 1 * (j 0).val
      omega
    | ⟨1, _⟩ =>
      show win2_0.index t (1 : Fin 2) * 128 + 1 * k.val = k.val
      omega
  · show V c main_arg4 (((cfg2.win 1).blk t).view.emb (ix2 k (⟨(j 1).val, (j 1).isLt⟩ : Fin 128))) = _
    refine congrArg (V c main_arg4) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_4.index t (1 : Fin 2) * 128 + 1 * (j 1).val
      omega
  · show V c main_v16 (((cfg2.win 2).blk t).view.emb (ix2 (⟨(j 0).val, (j 0).isLt⟩ : Fin 2000) (0 : Fin 1))) = _
    refine congrArg (V c main_v16) (funext fun a => Fin.ext ?_)
    match a with
    | ⟨0, _⟩ =>
      show win2_2.index t (0 : Fin 2) * 2000 + 1 * (j 0).val = win2_4.index t (0 : Fin 2) * 2000 + 1 * (j 0).val
      omega
    | ⟨1, _⟩ =>
      show win2_2.index t (1 : Fin 2) * 1 + 1 * 0 = 0
      omega

/-- An entry is in point t's block of the wide result iff each coordinate is in the block's range. -/
theorem proj_mem_wide (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v31_0).slice (win2_3.rect t)).set ↔ _
  rw [View.set_slice_whole, Rect.mem_set_unit]
  exact Iff.rfl

theorem proj_mem_narrow (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v31_1).slice (win2_4.rect t)).set ↔ _
  rw [View.set_slice_whole, Rect.mem_set_unit]
  exact Iff.rfl

/-- The blocks cover every entry: row r lies in the block of point r / 2000. -/
theorem proj_cover_wide (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht, -⟩ := proj_block_onto ⟨(i 0).val / 2000, by omega⟩
  obtain ⟨e00, e01, e10, e11, e20, e21, e40, e41, e31, e3lt⟩ := proj_blocks t
  have ht' : win2_3.index t (0 : Fin 2) = (i 0).val / 2000 := ht
  refine ⟨t, flush2_3 t, ?_⟩
  rw [proj_mem_wide]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 128 ≤ (i 1).val ∧ (i 1).val < win2_3.index t (1 : Fin 2) * 128 + 128
    omega

theorem proj_cover_narrow (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, -, ht⟩ := proj_block_onto ⟨(i 0).val / 2000, by omega⟩
  obtain ⟨e00, e01, e10, e11, e20, e21, e40, e41, e31, e3lt⟩ := proj_blocks t
  have ht' : win2_4.index t (0 : Fin 2) = (i 0).val / 2000 := ht
  refine ⟨t, flush2_4 t, ?_⟩
  rw [proj_mem_narrow]
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 128 ≤ (i 1).val ∧ (i 1).val < win2_4.index t (1 : Fin 2) * 128 + 128
    omega

/-- AFTER THE REGION both result arrays are the whole-array function of the arrays the region found. -/
theorem proj_wide (c : Dev nD) :
    (dat2 (F := Ideal) V c).arrAt 3 cfg2.N = scaledProj (V c main_v30) (V c main_arg4) (V c main_v16) :=
  (dat2 V c).arrAt_eq_of_cover 3 _ (fun t _ => proj_flushed_wide V c t) proj_cover_wide

theorem proj_narrow (c : Dev nD) :
    (dat2 (F := Ideal) V c).arrAt 4 cfg2.N = scaledProj (V c main_v30) (V c main_arg4) (V c main_v16) :=
  (dat2 V c).arrAt_eq_of_cover 4 _ (fun t _ => proj_flushed_narrow V c t) proj_cover_narrow
end

end Cert.KernelIdeal.Tiles.Second

end
-- ==== Proof.Tile1.lean ====
/-
  The second region of a layer: from the segment sum s, the scaled features hp, the factor column d and the bias row b,
  at node r and feature q,
      max( d[r, 0] · (s[r, q] + hp[r, q]) + b[0, q], 0 ).
  Point t of the 25 reads rows 2000·t … 2000·t + 1999 of s, hp and d and the whole bias row, and writes the same rows of
  the result; the blocks are restrictions of that one function and cover every row.
-/
import proofs.«160503_j74345883894179_2_alg».proof.Proof.Tile0

set_option maxRecDepth 16384

noncomputable section

namespace Cert.KernelIdeal.Tiles

open Cert.KernelIdeal Cert.KernelIdeal.Gen
open Idealize.ShloMosaic Idealize.ShloMosaic.ValueIdx Idealize.ShloMosaic.TcCoe Idealize.SL.Sem
open Idealize.ShloMosaic.Pipeline (Dat Cfg Window)

/-- A [1, 128] row stretched down the rows reads, at (p, q), the row at q. -/
theorem row_stretch_apply (v : S1x128.Idx → EReal) (h : S1x128.Broadcasts S2000x128) (p : Fin 2000) (q : Fin 128) :
    broadcastTo S2000x128 v h (ix2 p q) = v (ix2 (0 : Fin 1) q) := by
  refine broadcastTo_apply v h _ _ fun a => ?_
  match a with
  | ⟨0, _⟩ =>
    show (0 : ℕ) = if (1 : ℕ) = 1 then 0 else p.val
    rw [if_pos rfl]
  | ⟨1, _⟩ =>
    show q.val = if (128 : ℕ) = 1 then 0 else q.val
    rw [if_neg (by decide)]

/-- The layer's output from the segment sum, the scaled features, the factor column and the bias row. -/
def nodePost (S H : S50000x128.Idx → EReal) (D : S50000x1.Idx → EReal) (B : S1x128.Idx → EReal) :
    S50000x128.Idx → EReal :=
  fun i => max (D (ix2 (node i) (0 : Fin 1)) * (S i + H i) + B (ix2 (0 : Fin 1) (feat i))) 0

end Cert.KernelIdeal.Tiles

namespace Cert.KernelIdeal.Tiles.First

open Cert.KernelIdeal Cert.KernelIdeal.Gen Cert.KernelIdeal.Tiles
open Idealize.ShloMosaic Idealize.ShloMosaic.ValueIdx Idealize.ShloMosaic.TcCoe Idealize.SL.Sem
open Idealize.ShloMosaic.Pipeline (Dat Cfg Window)

/-- The body's result at an entry of the tile. -/
theorem post_payload_apply (v0 : Vec Ideal S2000x1 .f32) (v2 v4 : Vec Ideal S2000x128 .f32) (v9 : Vec Ideal S1x128 .f32)
    (p : Fin 2000) (q : Fin 128) :
    k1_pay1 v0 v2 v4 v9 (ix2 p q)
      = max (v0 (ix2 p (0 : Fin 1)) * (v2 (ix2 p q) + v4 (ix2 p q)) + v9 (ix2 (0 : Fin 1) q)) 0 := by
  unfold k1_pay1
  rw [maximumf_apply, addf_apply, mulf_apply, addf_apply]
  simp only [shapeCast_self]
  rw [column_stretch_apply, row_stretch_apply, broadcast_apply]
  show max _ (Ideal.ofBits .f32 0x00000000#32) = _
  rw [Ideal.ofBits_zero_f32]

/-- A tile of the whole-array function. -/
theorem post_tile (S H : S50000x128.Idx → EReal) (D : S50000x1.Idx → EReal) (B : S1x128.Idx → EReal)
    (x0 x1 : Vec Ideal S2000x128 .f32) (x2 : Vec Ideal S2000x1 .f32) (x3 : Vec Ideal S1x128 .f32)
    (p : Fin 2000) (q : Fin 128) (i : S50000x128.Idx)
    (h0 : x0 (ix2 p q) = S i) (h1 : x1 (ix2 p q) = H i)
    (h2 : x2 (ix2 p (0 : Fin 1)) = D (ix2 (node i) (0 : Fin 1)))
    (h3 : x3 (ix2 (0 : Fin 1) q) = B (ix2 (0 : Fin 1) (feat i))) :
    k1_pay1 x2 x0 x1 x3 (ix2 p q) = nodePost S H D B i := by
  rw [post_payload_apply]
  unfold nodePost
  rw [h0, h1, h2, h3]

/-- The printed index maps over the 25 grid points: the row blocks of s, hp, d and the result move together, the bias
    row stays at block (0, 0), and every column block is block 0. -/
theorem post_blocks : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) < 25 :=
  (by decide +kernel : ∀ t : Fin grid1.N, _)

/-- Every row block is some point's. -/
theorem post_block_onto : ∀ r : Fin 25, ∃ t : Fin cfg1.N, win1_4.index t (0 : Fin 2) = r.val :=
  (by decide +kernel : ∀ r : Fin 25, ∃ t : Fin grid1.N, _)

section
variable (V : (c : Dev nD) → (b : Ref sig .tc) → Buf (Elt Ideal) ((c : Thread nD τ).loc b))

/-- What point t writes back is block t of the whole-array function of the arrays as found. -/
theorem post_flushed (c : Dev nD) (t : Fin cfg1.N) :
    (dat1 (F := Ideal) V c).flushed 4 t
      = ((cfg1.win 4).blk t).view.read (Elt Ideal)
          (nodePost (V c main_v28) (V c main_v17_0) (V c main_v16) (V c main_v29)) := by
  show (cfg1.win 4).cut (grid1.coords t) ((dat1 V c).after 4 t) = _
  rw [after1_4]
  unfold out1_4
  rw [View.canon_unit_zero origin2]
  simp only [View.ld_unit_zero (S := S2000x128) origin2, View.ld_unit_zero (S := S2000x1) origin2,
    View.ld_unit_zero (S := S1x128) origin2]
  obtain ⟨e00, e01, e10, e11, e20, e21, e30, e31, e41, e4lt⟩ := post_blocks t
  funext j
  have hj : j = ix2 (⟨(j 0).val, (j 0).isLt⟩ : Fin 2000) (⟨(j 1).val, (j 1).isLt⟩ : Fin 128) :=
    funext fun a => by match a with | ⟨0, _⟩ => rfl | ⟨1, _⟩ => rfl
  show k1_pay1 (iblk1 V c 2 t) (iblk1 V c 0 t) (iblk1 V c 1 t) (iblk1 V c 3 t) j
    = nodePost (V c main_v28) (V c main_v17_0) (V c main_v16) (V c main_v29) (((cfg1.win 4).blk t).view.emb j)
  refine (congrArg (k1_pay1 (iblk1 V c 2 t) (iblk1 V c 0 t) (iblk1 V c 1 t) (iblk1 V c 3 t)) hj).trans ?_
  refine post_tile _ _ _ _ _ _ _ _ _ _ (((cfg1.win 4).blk t).view.emb j) ?_ ?_ ?_ ?_
  · show V c main_v28 (((cfg1.win 0).blk t).view.emb (ix2 (⟨(j 0).val, (j 0).isLt⟩ : Fin 2000) (⟨(j 1).val, (j 1).isLt⟩ : Fin 128))) = _
    refine congrArg (V c main_v28) (funext fun a => Fin.ext ?_)
    match a with
    | ⟨0, _⟩ =>
      show win1_0.index t (0 : Fin 2) * 2000 + 1 * (j 0).val = win1_4.index t (0 : Fin 2) * 2000 + 1 * (j 0).val
      omega
    | ⟨1, _⟩ =>
      show win1_0.index t (1 : Fin 2) * 128 + 1 * (j 1).val = win1_4.index t (1 : Fin 2) * 128 + 1 * (j 1).val
      omega
  · show V c main_v17_0 (((cfg1.win 1).blk t).view.emb (ix2 (⟨(j 0).val, (j 0).isLt⟩ : Fin 2000) (⟨(j 1).val, (j 1).isLt⟩ : Fin 128))) = _
    refine congrArg (V c main_v17_0) (funext fun a => Fin.ext ?_)
    match a with
    | ⟨0, _⟩ =>
      show win1_1.index t (0 : Fin 2) * 2000 + 1 * (j 0).val = win1_4.index t (0 : Fin 2) * 2000 + 1 * (j 0).val
      omega
    | ⟨1, _⟩ =>
      show win1_1.index t (1 : Fin 2) * 128 + 1 * (j 1).val = win1_4.index t (1 : Fin 2) * 128 + 1 * (j 1).val
      omega
  · show V c main_v16 (((cfg1.win 2).blk t).view.emb (ix2 (⟨(j 0).val, (j 0).isLt⟩ : Fin 2000) (0 : Fin 1))) = _
    refine congrArg (V c main_v16) (funext fun a => Fin.ext ?_)
    match a with
    | ⟨0, _⟩ =>
      show win1_2.index t (0 : Fin 2) * 2000 + 1 * (j 0).val = win1_4.index t (0 : Fin 2) * 2000 + 1 * (j 0).val
      omega
    | ⟨1, _⟩ =>
      show win1_2.index t (1 : Fin 2) * 1 + 1 * 0 = 0
      omega
  · show V c main_v29 (((cfg1.win 3).blk t).view.emb (ix2 (0 : Fin 1) (⟨(j 1).val, (j 1).isLt⟩ : Fin 128))) = _
    refine congrArg (V c main_v29) (funext fun a => Fin.ext ?_)
    match a with
    | ⟨0, _⟩ =>
      show win1_3.index t (0 : Fin 2) * 1 + 1 * 0 = 0
      omega
    | ⟨1, _⟩ =>
      show win1_3.index t (1 : Fin 2) * 128 + 1 * (j 1).val = win1_4.index t (1 : Fin 2) * 128 + 1 * (j 1).val
      omega

/-- An entry is in point t's block of the result iff each coordinate is in the block's range. -/
theorem post_mem (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v30).slice (win1_4.rect t)).set ↔ _
  rw [View.set_slice_whole, Rect.mem_set_unit]
  exact Iff.rfl

/-- The blocks cover every entry: row r lies in the block of point r / 2000. -/
theorem post_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := post_block_onto ⟨(i 0).val / 2000, by omega⟩
  obtain ⟨e00, e01, e10, e11, e20, e21, e30, e31, e41, e4lt⟩ := post_blocks t
  have ht' : win1_4.index t (0 : Fin 2) = (i 0).val / 2000 := ht
  refine ⟨t, flush1_4 t, ?_⟩
  rw [post_mem]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 128 ≤ (i 1).val ∧ (i 1).val < win1_4.index t (1 : Fin 2) * 128 + 128
    omega

/-- AFTER THE REGION the result array is the whole-array function of the arrays the region found. -/
theorem post_array (c : Dev nD) :
    (dat1 (F := Ideal) V c).arrAt 4 cfg1.N
      = nodePost (V c main_v28) (V c main_v17_0) (V c main_v16) (V c main_v29) :=
  (dat1 V c).arrAt_eq_of_cover 4 _ (fun t _ => post_flushed V c t) post_cover
end

end Cert.KernelIdeal.Tiles.First

end
-- ==== Proof.Tile3.lean ====
/-
  The second region of the second layer: the same scaling of the segment sum, bias and clamp at zero as in the first
  layer, on the second layer's arrays. Point t reads rows 2000·t … of the segment sum, of the scaled features and of the
  factor column and the whole bias row, and writes the same rows of the result.
-/
import proofs.«160503_j74345883894179_2_alg».proof.Proof.Tile1

set_option maxRecDepth 16384

noncomputable section

namespace Cert.KernelIdeal.Tiles.Second

open Cert.KernelIdeal Cert.KernelIdeal.Gen Cert.KernelIdeal.Tiles
open Idealize.ShloMosaic Idealize.ShloMosaic.ValueIdx Idealize.ShloMosaic.TcCoe Idealize.SL.Sem
open Idealize.ShloMosaic.Pipeline (Dat Cfg Window)

/-- The body's result at an entry of the tile. -/
theorem post_payload_apply (v0 : Vec Ideal S2000x1 .f32) (v2 v4 : Vec Ideal S2000x128 .f32) (v9 : Vec Ideal S1x128 .f32)
    (p : Fin 2000) (q : Fin 128) :
    k3_pay1 v0 v2 v4 v9 (ix2 p q)
      = max (v0 (ix2 p (0 : Fin 1)) * (v2 (ix2 p q) + v4 (ix2 p q)) + v9 (ix2 (0 : Fin 1) q)) 0 := by
  unfold k3_pay1
  rw [maximumf_apply, addf_apply, mulf_apply, addf_apply]
  simp only [shapeCast_self]
  rw [column_stretch_apply, row_stretch_apply, broadcast_apply]
  show max _ (Ideal.ofBits .f32 0x00000000#32) = _
  rw [Ideal.ofBits_zero_f32]

/-- A tile of the whole-array function. -/
theorem post_tile (S H : S50000x128.Idx → EReal) (D : S50000x1.Idx → EReal) (B : S1x128.Idx → EReal)
    (x0 x1 : Vec Ideal S2000x128 .f32) (x2 : Vec Ideal S2000x1 .f32) (x3 : Vec Ideal S1x128 .f32)
    (p : Fin 2000) (q : Fin 128) (i : S50000x128.Idx)
    (h0 : x0 (ix2 p q) = S i) (h1 : x1 (ix2 p q) = H i)
    (h2 : x2 (ix2 p (0 : Fin 1)) = D (ix2 (node i) (0 : Fin 1)))
    (h3 : x3 (ix2 (0 : Fin 1) q) = B (ix2 (0 : Fin 1) (feat i))) :
    k3_pay1 x2 x0 x1 x3 (ix2 p q) = nodePost S H D B i := by
  rw [post_payload_apply]
  unfold nodePost
  rw [h0, h1, h2, h3]

/-- The printed index maps over the 25 grid points: the row blocks of s, hp, d and the result move together, the bias
    row stays at block (0, 0), and every column block is block 0. -/
theorem post_blocks : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) < 25 :=
  (by decide +kernel : ∀ t : Fin grid3.N, _)

/-- Every row block is some point's. -/
theorem post_block_onto : ∀ r : Fin 25, ∃ t : Fin cfg3.N, win3_4.index t (0 : Fin 2) = r.val :=
  (by decide +kernel : ∀ r : Fin 25, ∃ t : Fin grid3.N, _)

section
variable (V : (c : Dev nD) → (b : Ref sig .tc) → Buf (Elt Ideal) ((c : Thread nD τ).loc b))

/-- What point t writes back is block t of the whole-array function of the arrays as found. -/
theorem post_flushed (c : Dev nD) (t : Fin cfg3.N) :
    (dat3 (F := Ideal) V c).flushed 4 t
      = ((cfg3.win 4).blk t).view.read (Elt Ideal)
          (nodePost (V c main_v42) (V c main_v31_0) (V c main_v16) (V c main_v43)) := by
  show (cfg3.win 4).cut (grid3.coords t) ((dat3 V c).after 4 t) = _
  rw [after3_4]
  unfold out3_4
  rw [View.canon_unit_zero origin2]
  simp only [View.ld_unit_zero (S := S2000x128) origin2, View.ld_unit_zero (S := S2000x1) origin2,
    View.ld_unit_zero (S := S1x128) origin2]
  obtain ⟨e00, e01, e10, e11, e20, e21, e30, e31, e41, e4lt⟩ := post_blocks t
  funext j
  have hj : j = ix2 (⟨(j 0).val, (j 0).isLt⟩ : Fin 2000) (⟨(j 1).val, (j 1).isLt⟩ : Fin 128) :=
    funext fun a => by match a with | ⟨0, _⟩ => rfl | ⟨1, _⟩ => rfl
  show k3_pay1 (iblk3 V c 2 t) (iblk3 V c 0 t) (iblk3 V c 1 t) (iblk3 V c 3 t) j
    = nodePost (V c main_v42) (V c main_v31_0) (V c main_v16) (V c main_v43) (((cfg3.win 4).blk t).view.emb j)
  refine (congrArg (k3_pay1 (iblk3 V c 2 t) (iblk3 V c 0 t) (iblk3 V c 1 t) (iblk3 V c 3 t)) hj).trans ?_
  refine post_tile _ _ _ _ _ _ _ _ _ _ (((cfg3.win 4).blk t).view.emb j) ?_ ?_ ?_ ?_
  · show V c main_v42 (((cfg3.win 0).blk t).view.emb (ix2 (⟨(j 0).val, (j 0).isLt⟩ : Fin 2000) (⟨(j 1).val, (j 1).isLt⟩ : Fin 128))) = _
    refine congrArg (V c main_v42) (funext fun a => Fin.ext ?_)
    match a with
    | ⟨0, _⟩ =>
      show win3_0.index t (0 : Fin 2) * 2000 + 1 * (j 0).val = win3_4.index t (0 : Fin 2) * 2000 + 1 * (j 0).val
      omega
    | ⟨1, _⟩ =>
      show win3_0.index t (1 : Fin 2) * 128 + 1 * (j 1).val = win3_4.index t (1 : Fin 2) * 128 + 1 * (j 1).val
      omega
  · show V c main_v31_0 (((cfg3.win 1).blk t).view.emb (ix2 (⟨(j 0).val, (j 0).isLt⟩ : Fin 2000) (⟨(j 1).val, (j 1).isLt⟩ : Fin 128))) = _
    refine congrArg (V c main_v31_0) (funext fun a => Fin.ext ?_)
    match a with
    | ⟨0, _⟩ =>
      show win3_1.index t (0 : Fin 2) * 2000 + 1 * (j 0).val = win3_4.index t (0 : Fin 2) * 2000 + 1 * (j 0).val
      omega
    | ⟨1, _⟩ =>
      show win3_1.index t (1 : Fin 2) * 128 + 1 * (j 1).val = win3_4.index t (1 : Fin 2) * 128 + 1 * (j 1).val
      omega
  · show V c main_v16 (((cfg3.win 2).blk t).view.emb (ix2 (⟨(j 0).val, (j 0).isLt⟩ : Fin 2000) (0 : Fin 1))) = _
    refine congrArg (V c main_v16) (funext fun a => Fin.ext ?_)
    match a with
    | ⟨0, _⟩ =>
      show win3_2.index t (0 : Fin 2) * 2000 + 1 * (j 0).val = win3_4.index t (0 : Fin 2) * 2000 + 1 * (j 0).val
      omega
    | ⟨1, _⟩ =>
      show win3_2.index t (1 : Fin 2) * 1 + 1 * 0 = 0
      omega
  · show V c main_v43 (((cfg3.win 3).blk t).view.emb (ix2 (0 : Fin 1) (⟨(j 1).val, (j 1).isLt⟩ : Fin 128))) = _
    refine congrArg (V c main_v43) (funext fun a => Fin.ext ?_)
    match a with
    | ⟨0, _⟩ =>
      show win3_3.index t (0 : Fin 2) * 1 + 1 * 0 = 0
      omega
    | ⟨1, _⟩ =>
      show win3_3.index t (1 : Fin 2) * 128 + 1 * (j 1).val = win3_4.index t (1 : Fin 2) * 128 + 1 * (j 1).val
      omega

/-- An entry is in point t's block of the result iff each coordinate is in the block's range. -/
theorem post_mem (t : Fin cfg3.N) (i : S50000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v44).slice (win3_4.rect t)).set ↔ _
  rw [View.set_slice_whole, Rect.mem_set_unit]
  exact Iff.rfl

/-- The blocks cover every entry: row r lies in the block of point r / 2000. -/
theorem post_cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := post_block_onto ⟨(i 0).val / 2000, by omega⟩
  obtain ⟨e00, e01, e10, e11, e20, e21, e30, e31, e41, e4lt⟩ := post_blocks t
  have ht' : win3_4.index t (0 : Fin 2) = (i 0).val / 2000 := ht
  refine ⟨t, flush3_4 t, ?_⟩
  rw [post_mem]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 128 ≤ (i 1).val ∧ (i 1).val < win3_4.index t (1 : Fin 2) * 128 + 128
    omega

/-- AFTER THE REGION the result array is the whole-array function of the arrays the region found. -/
theorem post_array (c : Dev nD) :
    (dat3 (F := Ideal) V c).arrAt 4 cfg3.N
      = nodePost (V c main_v42) (V c main_v31_0) (V c main_v16) (V c main_v43) :=
  (dat3 V c).arrAt_eq_of_cover 4 _ (fun t _ => post_flushed V c t) post_cover
end

end Cert.KernelIdeal.Tiles.Second

end
-- ==== Proof.Tile4.lean ====
/-
  The last region: the classifier on the second layer's output, with the weight matrix and the bias padded to 128
  columns. Over the whole arrays, at node r and column q,
      Σ_k h[r, k] · w[k, q]  +  b[0, q].
  Point t of the 25 reads rows 2000·t … 2000·t + 1999 of h and the whole of w and b, and writes the same rows of the
  result; the blocks are restrictions of that one function and cover every row.
-/
import proofs.«160503_j74345883894179_2_alg».proof.Proof.Tile1

set_option maxRecDepth 16384

noncomputable section

namespace Cert.KernelIdeal.Tiles

open Cert.KernelIdeal Cert.KernelIdeal.Gen
open Idealize.ShloMosaic Idealize.ShloMosaic.ValueIdx Idealize.ShloMosaic.TcCoe Idealize.SL.Sem
open Idealize.ShloMosaic.Pipeline (Dat Cfg Window)

/-- A product with a weight matrix plus a bias row, as one function of the whole arrays. -/
def affine (x : S50000x128.Idx → EReal) (w : S128x128.Idx → EReal) (b : S1x128.Idx → EReal) : S50000x128.Idx → EReal :=
  fun i => (∑ k : Fin 128, x (ix2 (node i) k) * w (ix2 k (feat i))) + b (ix2 (0 : Fin 1) (feat i))

/-- The body's result at an entry of the tile. -/
theorem affine_payload_apply (x0 : Vec Ideal S2000x128 .f32) (x1 : Vec Ideal S128x128 .f32) (x2 : Vec Ideal S1x128 .f32)
    (p : Fin 2000) (q : Fin 128) :
    k4_pay1 x0 x1 x2 (ix2 p q) = (∑ k : Fin 128, x0 (ix2 p k) * x1 (ix2 k q)) + x2 (ix2 (0 : Fin 1) q) := by
  unfold k4_pay1
  rw [addf_apply, tile_matmul_apply]
  simp only [shapeCast_self]
  rw [row_stretch_apply]
  rfl

/-- A tile of the whole-array function. -/
theorem affine_tile (X : S50000x128.Idx → EReal) (Wt : S128x128.Idx → EReal) (B : S1x128.Idx → EReal)
    (x0 : Vec Ideal S2000x128 .f32) (x1 : Vec Ideal S128x128 .f32) (x2 : Vec Ideal S1x128 .f32)
    (p : Fin 2000) (q : Fin 128) (i : S50000x128.Idx)
    (h0 : ∀ k : Fin 128, x0 (ix2 p k) = X (ix2 (node i) k))
    (h1 : ∀ k : Fin 128, x1 (ix2 k q) = Wt (ix2 k (feat i)))
    (h2 : x2 (ix2 (0 : Fin 1) q) = B (ix2 (0 : Fin 1) (feat i))) :
    k4_pay1 x0 x1 x2 (ix2 p q) = affine X Wt B i := by
  rw [affine_payload_apply]
  unfold affine
  rw [h2]
  exact congrArg (· + _) (Finset.sum_congr rfl fun k _ => by rw [h0 k, h1 k])

/-- The printed index maps over the 25 grid points. -/
theorem affine_blocks : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) < 25 :=
  (by decide +kernel : ∀ t : Fin grid4.N, _)

/-- Every row block is some point's. -/
theorem affine_block_onto : ∀ r : Fin 25, ∃ t : Fin cfg4.N, win4_3.index t (0 : Fin 2) = r.val :=
  (by decide +kernel : ∀ r : Fin 25, ∃ t : Fin grid4.N, _)

section
variable (V : (c : Dev nD) → (b : Ref sig .tc) → Buf (Elt Ideal) ((c : Thread nD τ).loc b))

/-- What point t writes back is block t of the whole-array function of the arrays as found. -/
theorem affine_flushed (c : Dev nD) (t : Fin cfg4.N) :
    (dat4 (F := Ideal) V c).flushed 3 t
      = ((cfg4.win 3).blk t).view.read (Elt Ideal) (affine (V c main_v44) (V c main_v45) (V c main_v47)) := by
  show (cfg4.win 3).cut (grid4.coords t) ((dat4 V c).after 3 t) = _
  rw [after4_3]
  unfold out4_3
  rw [View.canon_unit_zero origin2]
  simp only [View.ld_unit_zero (S := S2000x128) origin2, View.ld_unit_zero (S := S128x128) origin2,
    View.ld_unit_zero (S := S1x128) origin2]
  obtain ⟨e00, e01, e10, e11, e20, e21, e31, e3lt⟩ := affine_blocks t
  funext j
  have hj : j = ix2 (⟨(j 0).val, (j 0).isLt⟩ : Fin 2000) (⟨(j 1).val, (j 1).isLt⟩ : Fin 128) :=
    funext fun a => by match a with | ⟨0, _⟩ => rfl | ⟨1, _⟩ => rfl
  show k4_pay1 (iblk4 V c 0 t) (iblk4 V c 1 t) (iblk4 V c 2 t) j
    = affine (V c main_v44) (V c main_v45) (V c main_v47) (((cfg4.win 3).blk t).view.emb j)
  refine (congrArg (k4_pay1 (iblk4 V c 0 t) (iblk4 V c 1 t) (iblk4 V c 2 t)) hj).trans ?_
  refine affine_tile _ _ _ _ _ _ _ _ (((cfg4.win 3).blk t).view.emb j) (fun k => ?_) (fun k => ?_) ?_
  · show V c main_v44 (((cfg4.win 0).blk t).view.emb (ix2 (⟨(j 0).val, (j 0).isLt⟩ : Fin 2000) k)) = _
    refine congrArg (V c main_v44) (funext fun a => Fin.ext ?_)
    match a with
    | ⟨0, _⟩ =>
      show win4_0.index t (0 : Fin 2) * 2000 + 1 * (j 0).val = win4_3.index t (0 : Fin 2) * 2000 + 1 * (j 0).val
      omega
    | ⟨1, _⟩ =>
      show win4_0.index t (1 : Fin 2) * 128 + 1 * k.val = k.val
      omega
  · show V c main_v45 (((cfg4.win 1).blk t).view.emb (ix2 k (⟨(j 1).val, (j 1).isLt⟩ : Fin 128))) = _
    refine congrArg (V c main_v45) (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_3.index t (1 : Fin 2) * 128 + 1 * (j 1).val
      omega
  · show V c main_v47 (((cfg4.win 2).blk t).view.emb (ix2 (0 : Fin 1) (⟨(j 1).val, (j 1).isLt⟩ : Fin 128))) = _
    refine congrArg (V c main_v47) (funext fun a => Fin.ext ?_)
    match a with
    | ⟨0, _⟩ =>
      show win4_2.index t (0 : Fin 2) * 1 + 1 * 0 = 0
      omega
    | ⟨1, _⟩ =>
      show win4_2.index t (1 : Fin 2) * 128 + 1 * (j 1).val = win4_3.index t (1 : Fin 2) * 128 + 1 * (j 1).val
      omega

/-- An entry is in point t's block of the result iff each coordinate is in the block's range. -/
theorem affine_mem (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v48).slice (win4_3.rect t)).set ↔ _
  rw [View.set_slice_whole, Rect.mem_set_unit]
  exact Iff.rfl

/-- The blocks cover every entry: row r lies in the block of point r / 2000. -/
theorem affine_cover (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ := affine_block_onto ⟨(i 0).val / 2000, by omega⟩
  obtain ⟨e00, e01, e10, e11, e20, e21, e31, e3lt⟩ := affine_blocks t
  have ht' : win4_3.index t (0 : Fin 2) = (i 0).val / 2000 := ht
  refine ⟨t, flush4_3 t, ?_⟩
  rw [affine_mem]
  intro a
  match a with
  | ⟨0, _⟩ =>
    show win4_3.index t (0 : Fin 2) * 2000 ≤ (i 0).val ∧ (i 0).val < win4_3.index t (0 : Fin 2) * 2000 + 2000
    omega
  | ⟨1, _⟩ =>
    show win4_3.index t (1 : Fin 2) * 128 ≤ (i 1).val ∧ (i 1).val < win4_3.index t (1 : Fin 2) * 128 + 128
    omega

/-- AFTER THE REGION the result array is the whole-array function of the arrays the region found. -/
theorem affine_array (c : Dev nD) :
    (dat4 (F := Ideal) V c).arrAt 3 cfg4.N = affine (V c main_v44) (V c main_v45) (V c main_v47) :=
  (dat4 V c).arrAt_eq_of_cover 3 _ (fun t _ => affine_flushed V c t) affine_cover
end

end Cert.KernelIdeal.Tiles

end
-- ==== Proof.KernelStages.lean ====
/-
  The idealized kernel's stages as functions of its arguments, in program order.

  From the edge list: the source and destination vectors, each with negative entries wrapped by the node count, as
  index columns. The degree of a node is one plus the number of wrapped destination entries equal to it (a segment sum
  of ones, plus one), and a node's factor is the reciprocal square root of its degree. One layer takes features h, a
  weight matrix and a bias: it projects h and scales each row by its node's factor, gathers the scaled rows by source
  and sums them by destination, then scales the sum plus the node's own scaled row by the node's factor, adds the bias
  and clamps at zero. The result is two layers, then the classifier with its weights and bias padded by zero columns to
  128, cut back to the first 40 columns.
-/
import proofs.«160503_j74345883894179_2_alg».proof.Proof.Tile4
import Idealize.ShloMosaic.Lib.ValueIdx
import Idealize.ShloMosaic.PureOps.Ideal.Laws

set_option maxRecDepth 16384

noncomputable section

namespace Cert.KernelIdeal.Stages

open Cert.KernelIdeal Cert.KernelIdeal.Gen Cert.KernelIdeal.Tiles
open Idealize.ShloMosaic Idealize.ShloMosaic.ValueIdx Idealize.ShloMosaic.TcCoe Idealize.SL.Sem

/-! ## The stages as functions of the arguments -/

/-- The edges' source nodes. -/
def srcOf (ei : IVec S2x800000 32) : IVec S800000 32 :=
  shapeCast S800000 (extractStridedSlice S1x800000 ![0, 0] ei slices_S2x800000_S1x800000_0_0) shapeCasts_S1x800000_S800000

/-- The edges' destination nodes. -/
def dstOf (ei : IVec S2x800000 32) : IVec S800000 32 :=
  shapeCast S800000 (extractStridedSlice S1x800000 ![1, 0] ei slices_S2x800000_S1x800000_1_0) shapeCasts_S1x800000_S800000

/-- Negative entries wrapped by the node count. -/
def wrapOf (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of node indices as an index column. -/
def colOf (v : IVec S800000 32) : IVec S800000x1 32 :=
  broadcastInDim S800000x1 ![0] bcast_S800000_S800000x1_0 v

/-- The nodes' factors: the reciprocal square roots of the degrees, self loop counted. -/
def factorOf (ei : IVec S2x800000 32) : FVec Ideal S50000 .f32 :=
  Host.rsqrt (addf
    (Host.scatterAdd scatter_S50000_S800000x1_S800000_n_0_0_1
      (broadcastInDim S50000 ![] bcast_S_S50000 (constant (F := Ideal) S_ .f32 0x00000000#32))
      (colOf (wrapOf (dstOf ei)))
      (broadcastInDim S800000 ![] bcast_S_S800000 (constant (F := Ideal) S_ .f32 0x3F800000#32)))
    (broadcastInDim S50000 ![] bcast_S_S50000 (constant (F := Ideal) S_ .f32 0x3F800000#32)))

/-- The factors as a column. -/
def factorCol (ei : IVec S2x800000 32) : FVec Ideal S50000x1 .f32 :=
  shapeCast S50000x1 (factorOf ei) shapeCasts_S50000_S50000x1

/-- The scaled rows gathered by source and summed by destination. -/
def segSum (hp : FVec Ideal S50000x128 .bf16) (ei : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (colOf (dstOf ei))
    (extf .f32 (Host.gather gather_S50000x128_S800000x1_S800000x128_1_0_n_n_0_1_1128 hp (colOf (wrapOf (srcOf ei)))) bitsLt_bf16_f32)

/-- A bias vector as a row. -/
def biasRow (b : FVec Ideal S128 .f32) : FVec Ideal S1x128 .f32 := shapeCast S1x128 b shapeCasts_S128_S1x128

/-- One layer: project and scale by node, gather and sum, scale by node, add the bias, clamp at zero. -/
def layerOf (h : FVec Ideal S50000x128 .f32) (w : FVec Ideal S128x128 .f32) (b : FVec Ideal S128 .f32)
    (ei : IVec S2x800000 32) : FVec Ideal S50000x128 .f32 :=
  nodePost (segSum (scaledProj h w (factorCol ei)) ei) (scaledProj h w (factorCol ei)) (factorCol ei) (biasRow b)

/-- The classifier's weights padded with zero columns to 128. -/
def paddedWeights (wc : FVec Ideal S128x40 .f32) : FVec Ideal S128x128 .f32 :=
  pad S128x128 ![0, 0] ![0, 88] ![0, 0] wc (sitofp (F := Ideal) .f32 (constantI S_ 32 0#32)) pads_S128x40_S128x128_000_0880 h_S_

/-- The classifier's bias padded with zeros to 128, as a row. -/
def paddedBias (bc : FVec Ideal S40 .f32) : FVec Ideal S1x128 .f32 :=
  shapeCast S1x128 (pad S128 ![0] ![88] ![0] bc (sitofp (F := Ideal) .f32 (constantI S_ 32 0#32)) pads_S40_S128_0880 h_S_)
    shapeCasts_S128_S1x128

/-- THE KERNEL'S RESULT: two layers, the padded classifier, its first 40 columns. -/
def resultOf (x : FVec Ideal S50000x128 .f32) (ei : IVec S2x800000 32) (w1 : FVec Ideal S128x128 .f32) (b1 : FVec Ideal S128 .f32)
    (w2 : FVec Ideal S128x128 .f32) (b2 : FVec Ideal S128 .f32) (wc : FVec Ideal S128x40 .f32) (bc : FVec Ideal S40 .f32) :
    FVec Ideal S50000x40 .f32 :=
  extractStridedSlice S50000x40 ![0, 0]
    (affine (layerOf (layerOf x w1 b1 ei) w2 b2 ei) (paddedWeights wc) (paddedBias bc)) slices_S50000x128_S50000x40_0_0

end Cert.KernelIdeal.Stages

end
-- ==== Proof.KernelValue.lean ====
/-
  The fold of the idealized kernel's segments, read back to its arguments.

  Each fact below names the contents of one buffer when the next segment is entered: a host stretch leaves each of its
  results at its operation's value of the contents before it and every other buffer alone; a region leaves each output
  array at the whole-array function of the arrays it found and every other buffer alone. Read level by level from the
  launch memory, the result buffer at the end of the fold is the kernel's result function of the eight argument arrays.
-/
import proofs.«160503_j74345883894179_2_alg».proof.Proof.KernelRun
import proofs.«160503_j74345883894179_2_alg».proof.Proof.Tile2
import proofs.«160503_j74345883894179_2_alg».proof.Proof.Tile3
import proofs.«160503_j74345883894179_2_alg».proof.Proof.KernelStages
import Idealize.ShloMosaic.Lib.StableHlo.Run

set_option maxRecDepth 16384

noncomputable section

namespace Cert.KernelIdeal.Stages

open Cert.KernelIdeal Cert.KernelIdeal.Gen Cert.KernelIdeal.Tiles
open Idealize.ShloMosaic Idealize.ShloMosaic.ValueIdx Idealize.ShloMosaic.TcCoe Idealize.SL.Sem Idealize.ShloMosaic.StableHlo
open Idealize.ShloMosaic.Pipeline (Dat Cfg Window)

/-! ## The fold read back, level by level -/

/-- An argument array on core `c` at launch. -/
abbrev argAt (m : (ℓ : Loc nD τ sig) → Buf (Elt Ideal) ℓ) (c : Dev nD) (b : Ref sig .tc) : Buf (Elt Ideal) ((c.tc : Thread nD τ).loc b) :=
  m ((c.tc : Thread nD τ).loc b)

section
variable (m : (ℓ : Loc nD τ sig) → Buf (Elt Ideal) ℓ) (ρ : Dev nD → PrngReg) (c : Dev nD)

/-! ### After the first stretch (the first region's entry) -/

theorem at1_src : W1 m ρ c (Proc.devRef .tc main_v1) = srcOf (argAt m c main_arg1) := by
  show StableHlo.after hostOps0 (W0 m ρ c) (Proc.devRef .tc main_v1) = _
  after_results
  rfl

theorem at1_dst : W1 m ρ c (Proc.devRef .tc main_v3) = dstOf (argAt m c main_arg1) := by
  show StableHlo.after hostOps0 (W0 m ρ c) (Proc.devRef .tc main_v3) = _
  after_results
  rfl

set_option maxHeartbeats 4000000 in
theorem at1_factor : W1 m ρ c (Proc.devRef .tc main_v16) = factorCol (argAt m c main_arg1) := by
  show StableHlo.after hostOps0 (W0 m ρ c) (Proc.devRef .tc main_v16) = _
  after_results
  unfold factorCol factorOf colOf wrapOf dstOf
  rfl

theorem at1_arg0 : W1 m ρ c (Proc.devRef .tc main_arg0) = argAt m c main_arg0 := by
  show StableHlo.after hostOps0 (W0 m ρ c) (Proc.devRef .tc main_arg0) = _
  after_results

theorem at1_arg2 : W1 m ρ c (Proc.devRef .tc main_arg2) = argAt m c main_arg2 := by
  show StableHlo.after hostOps0 (W0 m ρ c) (Proc.devRef .tc main_arg2) = _
  after_results

theorem at1_arg3 : W1 m ρ c (Proc.devRef .tc main_arg3) = argAt m c main_arg3 := by
  show StableHlo.after hostOps0 (W0 m ρ c) (Proc.devRef .tc main_arg3) = _
  after_results

theorem at1_arg4 : W1 m ρ c (Proc.devRef .tc main_arg4) = argAt m c main_arg4 := by
  show StableHlo.after hostOps0 (W0 m ρ c) (Proc.devRef .tc main_arg4) = _
  after_results

theorem at1_arg5 : W1 m ρ c (Proc.devRef .tc main_arg5) = argAt m c main_arg5 := by
  show StableHlo.after hostOps0 (W0 m ρ c) (Proc.devRef .tc main_arg5) = _
  after_results

theorem at1_arg6 : W1 m ρ c (Proc.devRef .tc main_arg6) = argAt m c main_arg6 := by
  show StableHlo.after hostOps0 (W0 m ρ c) (Proc.devRef .tc main_arg6) = _
  after_results

theorem at1_arg7 : W1 m ρ c (Proc.devRef .tc main_arg7) = argAt m c main_arg7 := by
  show StableHlo.after hostOps0 (W0 m ρ c) (Proc.devRef .tc main_arg7) = _
  after_results

/-! ### After the first region -/

theorem at2_wide : W2 m ρ c (Proc.devRef .tc main_v17_0) = scaledProj (argAt m c main_arg0) (argAt m c main_arg2) (factorCol (argAt m c main_arg1)) := by
  refine (W2_arr m ρ c 3).trans ((proj_wide (V1 m ρ) c).trans ?_)
  show scaledProj (W1 m ρ c (Proc.devRef .tc main_arg0)) (W1 m ρ c (Proc.devRef .tc main_arg2)) (W1 m ρ c (Proc.devRef .tc main_v16)) = _
  rw [at1_arg0, at1_arg2, at1_factor]

theorem at2_narrow : W2 m ρ c (Proc.devRef .tc main_v17_1) = scaledProj (argAt m c main_arg0) (argAt m c main_arg2) (factorCol (argAt m c main_arg1)) := by
  refine (W2_arr m ρ c 4).trans ((proj_narrow (V1 m ρ) c).trans ?_)
  show scaledProj (W1 m ρ c (Proc.devRef .tc main_arg0)) (W1 m ρ c (Proc.devRef .tc main_arg2)) (W1 m ρ c (Proc.devRef .tc main_v16)) = _
  rw [at1_arg0, at1_arg2, at1_factor]

theorem at2_factor : W2 m ρ c (Proc.devRef .tc main_v16) = factorCol (argAt m c main_arg1) :=
  (W2_arr m ρ c 2).trans (((dat0 (V1 m ρ) c).arrAt_in 2 rfl _).trans ((A_eq0 (V1 m ρ) c 2).trans (at1_factor m ρ c)))

theorem at2_src : W2 m ρ c (Proc.devRef .tc main_v1) = srcOf (argAt m c main_arg1) :=
  (W2_of_ne m ρ c main_v1 (by decide)).trans (at1_src m ρ c)

theorem at2_dst : W2 m ρ c (Proc.devRef .tc main_v3) = dstOf (argAt m c main_arg1) :=
  (W2_of_ne m ρ c main_v3 (by decide)).trans (at1_dst m ρ c)

theorem at2_arg3 : W2 m ρ c (Proc.devRef .tc main_arg3) = argAt m c main_arg3 :=
  (W2_of_ne m ρ c main_arg3 (by decide)).trans (at1_arg3 m ρ c)

theorem at2_arg4 : W2 m ρ c (Proc.devRef .tc main_arg4) = argAt m c main_arg4 :=
  (W2_of_ne m ρ c main_arg4 (by decide)).trans (at1_arg4 m ρ c)

theorem at2_arg5 : W2 m ρ c (Proc.devRef .tc main_arg5) = argAt m c main_arg5 :=
  (W2_of_ne m ρ c main_arg5 (by decide)).trans (at1_arg5 m ρ c)

theorem at2_arg6 : W2 m ρ c (Proc.devRef .tc main_arg6) = argAt m c main_arg6 :=
  (W2_of_ne m ρ c main_arg6 (by decide)).trans (at1_arg6 m ρ c)

theorem at2_arg7 : W2 m ρ c (Proc.devRef .tc main_arg7) = argAt m c main_arg7 :=
  (W2_of_ne m ρ c main_arg7 (by decide)).trans (at1_arg7 m ρ c)

/-! ### After the second stretch (the second region's entry) -/

set_option maxHeartbeats 4000000 in
theorem at3_seg : W3 m ρ c (Proc.devRef .tc main_v28) = segSum (scaledProj (argAt m c main_arg0) (argAt m c main_arg2) (factorCol (argAt m c main_arg1))) (argAt m c main_arg1) := by
  show StableHlo.after hostOps1 (W2 m ρ c) (Proc.devRef .tc main_v28) = _
  after_results
  rw [at2_dst, at2_src, at2_narrow]
  rfl

theorem at3_bias : W3 m ρ c (Proc.devRef .tc main_v29) = biasRow (argAt m c main_arg3) := by
  show StableHlo.after hostOps1 (W2 m ρ c) (Proc.devRef .tc main_v29) = _
  after_results
  rw [at2_arg3]
  rfl

theorem at3_wide : W3 m ρ c (Proc.devRef .tc main_v17_0) = scaledProj (argAt m c main_arg0) (argAt m c main_arg2) (factorCol (argAt m c main_arg1)) := by
  show StableHlo.after hostOps1 (W2 m ρ c) (Proc.devRef .tc main_v17_0) = _
  after_results
  exact at2_wide m ρ c

theorem at3_factor : W3 m ρ c (Proc.devRef .tc main_v16) = factorCol (argAt m c main_arg1) := by
  show StableHlo.after hostOps1 (W2 m ρ c) (Proc.devRef .tc main_v16) = _
  after_results
  exact at2_factor m ρ c

theorem at3_src : W3 m ρ c (Proc.devRef .tc main_v1) = srcOf (argAt m c main_arg1) := by
  show StableHlo.after hostOps1 (W2 m ρ c) (Proc.devRef .tc main_v1) = _
  after_results
  exact at2_src m ρ c

theorem at3_dst : W3 m ρ c (Proc.devRef .tc main_v3) = dstOf (argAt m c main_arg1) := by
  show StableHlo.after hostOps1 (W2 m ρ c) (Proc.devRef .tc main_v3) = _
  after_results
  exact at2_dst m ρ c

theorem at3_arg4 : W3 m ρ c (Proc.devRef .tc main_arg4) = argAt m c main_arg4 := by
  show StableHlo.after hostOps1 (W2 m ρ c) (Proc.devRef .tc main_arg4) = _
  after_results
  exact at2_arg4 m ρ c

theorem at3_arg5 : W3 m ρ c (Proc.devRef .tc main_arg5) = argAt m c main_arg5 := by
  show StableHlo.after hostOps1 (W2 m ρ c) (Proc.devRef .tc main_arg5) = _
  after_results
  exact at2_arg5 m ρ c

theorem at3_arg6 : W3 m ρ c (Proc.devRef .tc main_arg6) = argAt m c main_arg6 := by
  show StableHlo.after hostOps1 (W2 m ρ c) (Proc.devRef .tc main_arg6) = _
  after_results
  exact at2_arg6 m ρ c

theorem at3_arg7 : W3 m ρ c (Proc.devRef .tc main_arg7) = argAt m c main_arg7 := by
  show StableHlo.after hostOps1 (W2 m ρ c) (Proc.devRef .tc main_arg7) = _
  after_results
  exact at2_arg7 m ρ c

/-! ### After the second region: the first layer's output -/

theorem at4_layer : W4 m ρ c (Proc.devRef .tc main_v30) = layerOf (argAt m c main_arg0) (argAt m c main_arg2) (argAt m c main_arg3) (argAt m c main_arg1) := by
  refine (W4_arr m ρ c 4).trans ((First.post_array (V3 m ρ) c).trans ?_)
  show nodePost (W3 m ρ c (Proc.devRef .tc main_v28)) (W3 m ρ c (Proc.devRef .tc main_v17_0)) (W3 m ρ c (Proc.devRef .tc main_v16)) (W3 m ρ c (Proc.devRef .tc main_v29)) = _
  rw [at3_seg, at3_wide, at3_factor, at3_bias]
  rfl

theorem at4_factor : W4 m ρ c (Proc.devRef .tc main_v16) = factorCol (argAt m c main_arg1) :=
  (W4_arr m ρ c 2).trans (((dat1 (V3 m ρ) c).arrAt_in 2 rfl _).trans ((A_eq1 (V3 m ρ) c 2).trans (at3_factor m ρ c)))

theorem at4_src : W4 m ρ c (Proc.devRef .tc main_v1) = srcOf (argAt m c main_arg1) :=
  (W4_of_ne m ρ c main_v1 (by decide)).trans (at3_src m ρ c)

theorem at4_dst : W4 m ρ c (Proc.devRef .tc main_v3) = dstOf (argAt m c main_arg1) :=
  (W4_of_ne m ρ c main_v3 (by decide)).trans (at3_dst m ρ c)

theorem at4_arg4 : W4 m ρ c (Proc.devRef .tc main_arg4) = argAt m c main_arg4 :=
  (W4_of_ne m ρ c main_arg4 (by decide)).trans (at3_arg4 m ρ c)

theorem at4_arg5 : W4 m ρ c (Proc.devRef .tc main_arg5) = argAt m c main_arg5 :=
  (W4_of_ne m ρ c main_arg5 (by decide)).trans (at3_arg5 m ρ c)

theorem at4_arg6 : W4 m ρ c (Proc.devRef .tc main_arg6) = argAt m c main_arg6 :=
  (W4_of_ne m ρ c main_arg6 (by decide)).trans (at3_arg6 m ρ c)

theorem at4_arg7 : W4 m ρ c (Proc.devRef .tc main_arg7) = argAt m c main_arg7 :=
  (W4_of_ne m ρ c main_arg7 (by decide)).trans (at3_arg7 m ρ c)

/-! ### After the third region -/

theorem at5_wide : W5 m ρ c (Proc.devRef .tc main_v31_0) = scaledProj (layerOf (argAt m c main_arg0) (argAt m c main_arg2) (argAt m c main_arg3) (argAt m c main_arg1)) (argAt m c main_arg4) (factorCol (argAt m c main_arg1)) := by
  refine (W5_arr m ρ c 3).trans ((Second.proj_wide (V4 m ρ) c).trans ?_)
  show scaledProj (W4 m ρ c (Proc.devRef .tc main_v30)) (W4 m ρ c (Proc.devRef .tc main_arg4)) (W4 m ρ c (Proc.devRef .tc main_v16)) = _
  rw [at4_layer, at4_arg4, at4_factor]

theorem at5_narrow : W5 m ρ c (Proc.devRef .tc main_v31_1) = scaledProj (layerOf (argAt m c main_arg0) (argAt m c main_arg2) (argAt m c main_arg3) (argAt m c main_arg1)) (argAt m c main_arg4) (factorCol (argAt m c main_arg1)) := by
  refine (W5_arr m ρ c 4).trans ((Second.proj_narrow (V4 m ρ) c).trans ?_)
  show scaledProj (W4 m ρ c (Proc.devRef .tc main_v30)) (W4 m ρ c (Proc.devRef .tc main_arg4)) (W4 m ρ c (Proc.devRef .tc main_v16)) = _
  rw [at4_layer, at4_arg4, at4_factor]

theorem at5_factor : W5 m ρ c (Proc.devRef .tc main_v16) = factorCol (argAt m c main_arg1) :=
  (W5_arr m ρ c 2).trans (((dat2 (V4 m ρ) c).arrAt_in 2 rfl _).trans ((A_eq2 (V4 m ρ) c 2).trans (at4_factor m ρ c)))

theorem at5_src : W5 m ρ c (Proc.devRef .tc main_v1) = srcOf (argAt m c main_arg1) :=
  (W5_of_ne m ρ c main_v1 (by decide)).trans (at4_src m ρ c)

theorem at5_dst : W5 m ρ c (Proc.devRef .tc main_v3) = dstOf (argAt m c main_arg1) :=
  (W5_of_ne m ρ c main_v3 (by decide)).trans (at4_dst m ρ c)

theorem at5_arg5 : W5 m ρ c (Proc.devRef .tc main_arg5) = argAt m c main_arg5 :=
  (W5_of_ne m ρ c main_arg5 (by decide)).trans (at4_arg5 m ρ c)

theorem at5_arg6 : W5 m ρ c (Proc.devRef .tc main_arg6) = argAt m c main_arg6 :=
  (W5_of_ne m ρ c main_arg6 (by decide)).trans (at4_arg6 m ρ c)

theorem at5_arg7 : W5 m ρ c (Proc.devRef .tc main_arg7) = argAt m c main_arg7 :=
  (W5_of_ne m ρ c main_arg7 (by decide)).trans (at4_arg7 m ρ c)

/-! ### After the third stretch (the fourth region's entry) -/

set_option maxHeartbeats 4000000 in
theorem at6_seg : W6 m ρ c (Proc.devRef .tc main_v42) = segSum (scaledProj (layerOf (argAt m c main_arg0) (argAt m c main_arg2) (argAt m c main_arg3) (argAt m c main_arg1)) (argAt m c main_arg4) (factorCol (argAt m c main_arg1))) (argAt m c main_arg1) := by
  show StableHlo.after hostOps3 (W5 m ρ c) (Proc.devRef .tc main_v42) = _
  after_results
  rw [at5_dst, at5_src, at5_narrow]
  rfl

theorem at6_bias : W6 m ρ c (Proc.devRef .tc main_v43) = biasRow (argAt m c main_arg5) := by
  show StableHlo.after hostOps3 (W5 m ρ c) (Proc.devRef .tc main_v43) = _
  after_results
  rw [at5_arg5]
  rfl

theorem at6_wide : W6 m ρ c (Proc.devRef .tc main_v31_0) = scaledProj (layerOf (argAt m c main_arg0) (argAt m c main_arg2) (argAt m c main_arg3) (argAt m c main_arg1)) (argAt m c main_arg4) (factorCol (argAt m c main_arg1)) := by
  show StableHlo.after hostOps3 (W5 m ρ c) (Proc.devRef .tc main_v31_0) = _
  after_results
  exact at5_wide m ρ c

theorem at6_factor : W6 m ρ c (Proc.devRef .tc main_v16) = factorCol (argAt m c main_arg1) := by
  show StableHlo.after hostOps3 (W5 m ρ c) (Proc.devRef .tc main_v16) = _
  after_results
  exact at5_factor m ρ c

theorem at6_arg6 : W6 m ρ c (Proc.devRef .tc main_arg6) = argAt m c main_arg6 := by
  show StableHlo.after hostOps3 (W5 m ρ c) (Proc.devRef .tc main_arg6) = _
  after_results
  exact at5_arg6 m ρ c

theorem at6_arg7 : W6 m ρ c (Proc.devRef .tc main_arg7) = argAt m c main_arg7 := by
  show StableHlo.after hostOps3 (W5 m ρ c) (Proc.devRef .tc main_arg7) = _
  after_results
  exact at5_arg7 m ρ c

/-! ### After the fourth region: the second layer's output -/

theorem at7_layer : W7 m ρ c (Proc.devRef .tc main_v44) = layerOf (layerOf (argAt m c main_arg0) (argAt m c main_arg2) (argAt m c main_arg3) (argAt m c main_arg1)) (argAt m c main_arg4) (argAt m c main_arg5) (argAt m c main_arg1) := by
  refine (W7_arr m ρ c 4).trans ((Second.post_array (V6 m ρ) c).trans ?_)
  show nodePost (W6 m ρ c (Proc.devRef .tc main_v42)) (W6 m ρ c (Proc.devRef .tc main_v31_0)) (W6 m ρ c (Proc.devRef .tc main_v16)) (W6 m ρ c (Proc.devRef .tc main_v43)) = _
  rw [at6_seg, at6_wide, at6_factor, at6_bias]
  rfl

theorem at7_arg6 : W7 m ρ c (Proc.devRef .tc main_arg6) = argAt m c main_arg6 :=
  (W7_of_ne m ρ c main_arg6 (by decide)).trans (at6_arg6 m ρ c)

theorem at7_arg7 : W7 m ρ c (Proc.devRef .tc main_arg7) = argAt m c main_arg7 :=
  (W7_of_ne m ρ c main_arg7 (by decide)).trans (at6_arg7 m ρ c)

/-! ### The padding of the classifier's weights and bias -/

theorem at8_layer : W8 m ρ c (Proc.devRef .tc main_v44) = layerOf (layerOf (argAt m c main_arg0) (argAt m c main_arg2) (argAt m c main_arg3) (argAt m c main_arg1)) (argAt m c main_arg4) (argAt m c main_arg5) (argAt m c main_arg1) := by
  show StableHlo.after hostOps4 (W7 m ρ c) (Proc.devRef .tc main_v44) = _
  after_results
  exact at7_layer m ρ c

theorem at9_weights : W9 m ρ c (Proc.devRef .tc main_v45) = paddedWeights (argAt m c main_arg6) := by
  show StableHlo.after hostOps4_1 (W8 m ρ c) (Proc.devRef .tc main_v45) = _
  after_results
  rw [← at7_arg6 m ρ c]
  rfl

theorem at9_layer : W9 m ρ c (Proc.devRef .tc main_v44) = layerOf (layerOf (argAt m c main_arg0) (argAt m c main_arg2) (argAt m c main_arg3) (argAt m c main_arg1)) (argAt m c main_arg4) (argAt m c main_arg5) (argAt m c main_arg1) := by
  show StableHlo.after hostOps4_1 (W8 m ρ c) (Proc.devRef .tc main_v44) = _
  after_results
  exact at8_layer m ρ c

theorem at10_layer : W10 m ρ c (Proc.devRef .tc main_v44) = layerOf (layerOf (argAt m c main_arg0) (argAt m c main_arg2) (argAt m c main_arg3) (argAt m c main_arg1)) (argAt m c main_arg4) (argAt m c main_arg5) (argAt m c main_arg1) := by
  show StableHlo.after hostOps4_2 (W9 m ρ c) (Proc.devRef .tc main_v44) = _
  after_results
  exact at9_layer m ρ c

theorem at10_weights : W10 m ρ c (Proc.devRef .tc main_v45) = paddedWeights (argAt m c main_arg6) := by
  show StableHlo.after hostOps4_2 (W9 m ρ c) (Proc.devRef .tc main_v45) = _
  after_results
  exact at9_weights m ρ c

theorem at11_bias : W11 m ρ c (Proc.devRef .tc main_v46) = pad S128 ![0] ![88] ![0] (argAt m c main_arg7) (sitofp (F := Ideal) .f32 (constantI S_ 32 0#32)) pads_S40_S128_0880 h_S_ := by
  show StableHlo.after hostOps4_3 (W10 m ρ c) (Proc.devRef .tc main_v46) = _
  after_results
  rw [← at7_arg7 m ρ c]
  rfl

theorem at11_layer : W11 m ρ c (Proc.devRef .tc main_v44) = layerOf (layerOf (argAt m c main_arg0) (argAt m c main_arg2) (argAt m c main_arg3) (argAt m c main_arg1)) (argAt m c main_arg4) (argAt m c main_arg5) (argAt m c main_arg1) := by
  show StableHlo.after hostOps4_3 (W10 m ρ c) (Proc.devRef .tc main_v44) = _
  after_results
  exact at10_layer m ρ c

theorem at11_weights : W11 m ρ c (Proc.devRef .tc main_v45) = paddedWeights (argAt m c main_arg6) := by
  show StableHlo.after hostOps4_3 (W10 m ρ c) (Proc.devRef .tc main_v45) = _
  after_results
  exact at10_weights m ρ c

theorem at12_bias : W12 m ρ c (Proc.devRef .tc main_v47) = paddedBias (argAt m c main_arg7) := by
  show StableHlo.after hostOps4_4 (W11 m ρ c) (Proc.devRef .tc main_v47) = _
  after_results
  rw [← at7_arg7 m ρ c]
  rfl

theorem at12_layer : W12 m ρ c (Proc.devRef .tc main_v44) = layerOf (layerOf (argAt m c main_arg0) (argAt m c main_arg2) (argAt m c main_arg3) (argAt m c main_arg1)) (argAt m c main_arg4) (argAt m c main_arg5) (argAt m c main_arg1) := by
  show StableHlo.after hostOps4_4 (W11 m ρ c) (Proc.devRef .tc main_v44) = _
  after_results
  exact at11_layer m ρ c

theorem at12_weights : W12 m ρ c (Proc.devRef .tc main_v45) = paddedWeights (argAt m c main_arg6) := by
  show StableHlo.after hostOps4_4 (W11 m ρ c) (Proc.devRef .tc main_v45) = _
  after_results
  exact at11_weights m ρ c

/-! ### The classifier and the result -/

theorem at13_logits : W13 m ρ c (Proc.devRef .tc main_v48) = affine (layerOf (layerOf (argAt m c main_arg0) (argAt m c main_arg2) (argAt m c main_arg3) (argAt m c main_arg1)) (argAt m c main_arg4) (argAt m c main_arg5) (argAt m c main_arg1)) (paddedWeights (argAt m c main_arg6)) (paddedBias (argAt m c main_arg7)) := by
  refine (W13_arr m ρ c 3).trans ((affine_array (V12 m ρ) c).trans ?_)
  show affine (W12 m ρ c (Proc.devRef .tc main_v44)) (W12 m ρ c (Proc.devRef .tc main_v45)) (W12 m ρ c (Proc.devRef .tc main_v47)) = _
  rw [at12_layer, at12_weights, at12_bias]

/-- THE RESULT BUFFER at the end of the fold is the kernel's result function of the argument arrays. -/
theorem at14_result : W14 m ρ c (Proc.devRef .tc main_v49)
    = resultOf (argAt m c main_arg0) (argAt m c main_arg1) (argAt m c main_arg2) (argAt m c main_arg3) (argAt m c main_arg4) (argAt m c main_arg5) (argAt m c main_arg6) (argAt m c main_arg7) := by
  show StableHlo.after hostOps5 (W13 m ρ c) (Proc.devRef .tc main_v49) = _
  after_results
  rw [at13_logits]
  rfl

end

end Cert.KernelIdeal.Stages

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.LibRowScatter.lean ====
/-
  An accumulating scatter of whole rows, read at an entry.

  Update rows upd : [E, D] are summed into the rows of a matrix x : [N, D] that an integer column idx : [E, 1]
  names (a segment sum of rows).  Entry (e, d) of the updates lands on entry (i, j) of the result exactly when
  the e-th index, read as a signed integer and NOT clamped, equals i, and d = j; an index outside [0, N) lands
  nowhere.  Hence, at exact arithmetic, entry (i, j) of the scattered sum is the operand's entry plus the sum
  over all e of "upd (e, j) if the e-th index equals i, else 0".
-/
import Idealize.ShloMosaic.Lib.ValueIdx
import Idealize.ShloMosaic.PureOps.Ideal.Laws

noncomputable section

open scoped BigOperators

namespace LibRowScatter

open Idealize.ShloMosaic Idealize.ShloMosaic.ValueIdx

/-- The dimension numbers of a segment sum of rows into a matrix `[N, D]`: updates `[E, D]`, index column `[E, 1]`. -/
abbrev addRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update entry `(e, d)` lands on entry `(i, j)` exactly when the `e`-th index, read signed, is `i` and `d = j`. -/
theorem resultIdx?_rows_iff {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (addRowsDims N D E wf).resultIdx? j idx = some i
      ↔ (idx (ix2 (j 0) (0 : Fin 1))).toInt = ((i 0).val : ℤ) ∧ (j 1).val = (i 1).val := by
  have hi0 : (i 0).val < N := idx2_lt0 i
  have hi1 : (i 1).val < D := idx2_lt1 i
  have hj1 : (j 1).val < D := idx2_lt1 j
  have hstart0 : (addRowsDims N D E wf).start j idx 0 = (idx (ix2 (j 0) (0 : Fin 1))).toInt := by
    unfold ScatterDims.start
    rw [dif_pos (show (0 : Fin 2) ∈ (addRowsDims N D E wf).scatterDimsToOperandDims from List.mem_singleton.mpr rfl)]
    have hsi : (addRowsDims N D E wf).siIdx j ⟨List.idxOf (0 : Fin 2) (addRowsDims N D E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowsDims N D E wf).window j 0 = 0 := by
    unfold ScatterDims.window
    rw [dif_neg (by simp [ScatterDims.sKept, Shape.kept])]
  have hstart1 : (addRowsDims N D E wf).start j idx 1 = 0 := by
    unfold ScatterDims.start
    rw [dif_neg (by simp [ScatterDims.sKept, Shape.kept])]
  have hwin1 : (addRowsDims N D E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have h1 := congrArg (fun f => (f 1).val) he
      have hh := h 0
      simp only [hstart0, hwin0] at h0 hh
      simp only [hstart1, hwin1] at h1
      constructor
      · omega
      · omega
    · rintro ⟨he, hd⟩
      funext a
      refine Fin.ext ?_
      match a with
      | ⟨0, _⟩ =>
        show ((addRowsDims N D E wf).start j idx 0 + ((addRowsDims N D E wf).window j 0 : ℕ)).toNat = (i 0).val
        rw [hstart0, hwin0]
        omega
      | ⟨1, _⟩ =>
        show ((addRowsDims N D E wf).start j idx 1 + ((addRowsDims N D E wf).window j 1 : ℕ)).toNat = (i 1).val
        rw [hstart1, hwin1]
        omega
  · rename_i h
    constructor
    · intro he; exact absurd he (by simp)
    · rintro ⟨he, hd⟩
      exfalso
      apply h
      intro a
      match a with
      | ⟨0, _⟩ =>
        show 0 ≤ (addRowsDims N D E wf).start j idx 0 + ((addRowsDims N D E wf).window j 0 : ℕ)
          ∧ (addRowsDims N D E wf).start j idx 0 + ((addRowsDims N D E wf).window j 0 : ℕ) < (N : ℤ)
        rw [hstart0, hwin0]
        omega
      | ⟨1, _⟩ =>
        show 0 ≤ (addRowsDims N D E wf).start j idx 1 + ((addRowsDims N D E wf).window j 1 : ℕ)
          ∧ (addRowsDims N D E wf).start j idx 1 + ((addRowsDims N D E wf).window j 1 : ℕ) < ((D : ℕ) : ℤ)
        rw [hstart1, hwin1]
        omega

/-- At exact arithmetic, entry `(i, j)` of the segment sum of rows is the operand's entry plus the sum over all
    `e` of "update entry `(e, j)` if the `e`-th index is `i`, else 0". -/
theorem scatterAdd_rows_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : Fin N) (j : Fin D) :
    Host.scatterAdd (addRowsDims N D E wf) x idx upd (ix2 i j)
      = x (ix2 i j) + ∑ e : Fin E, if (idx (ix2 e (0 : Fin 1))).toInt = ((i : ℕ) : ℤ) then upd (ix2 e j) else 0 := by
  show Ideal.hostScatterAdd (addRowsDims N D E wf) x idx upd (ix2 i j) = _
  unfold Ideal.hostScatterAdd
  congr 1
  rw [Finset.sum_filter, sum_idx2]
  refine Finset.sum_congr rfl (fun e _ => ?_)
  have hcond : ∀ d : Fin D, ((addRowsDims N D E wf).resultIdx? (ix2 e d) idx = some (ix2 i j))
      ↔ ((idx (ix2 e (0 : Fin 1))).toInt = ((i : ℕ) : ℤ) ∧ d = j) := by
    intro d
    rw [resultIdx?_rows_iff wf idx (ix2 e d) (ix2 i j)]
    exact and_congr Iff.rfl ⟨fun h => Fin.ext h, fun h => congrArg Fin.val h⟩
  by_cases hP : (idx (ix2 e (0 : Fin 1))).toInt = ((i : ℕ) : ℤ)
  · rw [if_pos hP]
    rw [Finset.sum_congr rfl (fun d _ => if_congr ((hcond d).trans (and_iff_right hP)) rfl rfl)]
    rw [Finset.sum_ite_eq' Finset.univ j (fun d => upd (ix2 e d))]
    simp
  · rw [if_neg hP]
    refine Finset.sum_eq_zero (fun d _ => ?_)
    rw [if_neg]
    intro h
    exact hP ((hcond d).mp h).1

end LibRowScatter

end
-- ==== Proof.LibSegmentIdx.lean ====
/-
  Gathers and accumulating scatters along the leading axis, read at an index.

  Indexing a table by an integer column, `x[idx]`, and summing update rows into the rows an integer column names
  (a segment sum) are the two halves of message passing on a graph. With the index column of shape [E, 1]:

  * a gather from a vector x : [N], or from a one-column matrix x : [N, 1], reads at position e the entry of x at
    the e-th index, read as a signed integer and clamped into [0, N − 1];
  * an accumulating scatter into a vector [N], or into a one-column matrix [N, 1], lands update e on row i exactly
    when the e-th index, read as a signed integer and NOT clamped, equals i; an index outside [0, N) lands nowhere;
  * hence, at exact arithmetic, row i of the scattered sum is the operand's row i plus the sum over all e of
    "update e if the e-th index equals i, else 0".
-/
import Idealize.ShloMosaic.Lib.ValueIdx
import Idealize.ShloMosaic.PureOps.Ideal.Laws

noncomputable section

open scoped BigOperators

namespace LibSegmentIdx

open Idealize.ShloMosaic Idealize.ShloMosaic.ValueIdx

/-! ## Gathers -/

section Gather
variable {α : Type}

/-- The dimension numbers of `x[idx]` for a vector `x : [N]` and an index column `idx : [E, 1]`, result `[E]`. -/
abbrev takeVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of `x[idx]` is `x` at the `e`-th index, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (takeVecDims N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (takeVecDims N E wf).start j idx 0 + (takeVecDims N E wf).batchCoord j 0 + (takeVecDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeVecDims N E wf).startIndexMap from List.mem_singleton.mpr rfl)]
  have hsi : (takeVecDims N E wf).siIdx j ⟨List.idxOf (0 : Fin 1) (takeVecDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a one-column matrix `x : [N, 1]` and `idx : [E, 1]`, result `[E, 1]`. -/
abbrev takeRowDims (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of `x[idx]` is the row of `x` at the `e`-th index, read signed and clamped into `[0, N − 1]`. -/
theorem gather_row_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (takeRowDims N E wf) x idx j
      = x (ix2 ⟨min (idx (ix2 (j 0) (0 : Fin 1))).toInt.toNat (N - 1), by omega⟩ (0 : Fin 1)) := by
  unfold Host.gather
  congr 1
  funext a
  refine Fin.ext ?_
  match a with
  | ⟨0, _⟩ =>
    show (takeRowDims N E wf).start j idx 0 + (takeRowDims N E wf).batchCoord j 0 + (takeRowDims N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims N E wf).startIndexMap from List.mem_singleton.mpr rfl)]
    have hsi : (takeRowDims N E wf).siIdx j ⟨List.idxOf (0 : Fin 2) (takeRowDims N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    have h1 := (takeRowDims N E wf).lt j idx 1
    have : (⟨2, ![N, 1]⟩ : Shape).size 1 = 1 := rfl
    show (takeRowDims N E wf).start j idx 1 + (takeRowDims N E wf).batchCoord j 1 + (takeRowDims N E wf).offCoord j 1 = 0
    omega

end Gather

/-! ## Accumulating scatters -/

section Scatter

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

/-- A column's index set `[n, 1]` is its row coordinate's range. -/
def idxEquivCol {n : Nat} : (⟨2, ![n, 1]⟩ : Shape).Idx ≃ Fin n where
  toFun i := i 0
  invFun e := ix2 e (0 : Fin 1)
  left_inv i := funext fun a => match a with
    | ⟨0, _⟩ => rfl
    | ⟨1, _⟩ => Fin.ext (by have := idx2_lt1 i; show (0 : ℕ) = (i 1).val; omega)
  right_inv _ := rfl

/-- The dimension numbers of a segment sum into a vector `[N]`: updates `[E]`, index column `[E, 1]`. -/
abbrev addVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `i` exactly when the `e`-th index, read signed, is `i`. -/
theorem resultIdx?_vec_iff {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (addVecDims N E wf).resultIdx? j idx = some i ↔ (idx (ix2 (j 0) (0 : Fin 1))).toInt = ((i 0).val : ℤ) := by
  have hi : (i 0).val < N := (i 0).isLt
  have hstart : (addVecDims N E wf).start j idx 0 = (idx (ix2 (j 0) (0 : Fin 1))).toInt := by
    unfold ScatterDims.start
    rw [dif_pos (show (0 : Fin 1) ∈ (addVecDims N E wf).scatterDimsToOperandDims from List.mem_singleton.mpr rfl)]
    have hsi : (addVecDims N E wf).siIdx j ⟨List.idxOf (0 : Fin 1) (addVecDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin : (addVecDims N E wf).window j 0 = 0 := by
    unfold ScatterDims.window
    rw [dif_neg (by simp [ScatterDims.sKept, Shape.kept])]
  unfold ScatterDims.resultIdx?
  split
  · rename_i h
    rw [Option.some_inj]
    constructor
    · intro he
      have h0 := congrArg (fun f => (f 0).val) he
      have hh := h 0
      simp only [hstart, hwin] at h0 hh
      omega
    · intro he
      funext a
      obtain rfl : a = 0 := Subsingleton.elim _ _
      refine Fin.ext ?_
      show ((addVecDims N E wf).start j idx 0 + ((addVecDims N E wf).window j 0 : ℕ)).toNat = (i 0).val
      rw [hstart, hwin]
      omega
  · rename_i h
    constructor
    · intro he; exact absurd he (by simp)
    · intro he
      exfalso
      apply h
      intro a
      obtain rfl : a = 0 := Subsingleton.elim _ _
      rw [hstart, hwin]
      have : (⟨1, ![N]⟩ : Shape).size 0 = N := rfl
      omega

/-- At exact arithmetic, entry `i` of the segment sum into a vector is the operand's entry plus the sum over all
    `e` of "update `e` if the `e`-th index is `i`, else 0". -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : (⟨1, ![N]⟩ : Shape).Idx) :
    Host.scatterAdd (addVecDims N E wf) x idx upd i
      = x i + ∑ e : Fin E, if (idx (ix2 e (0 : Fin 1))).toInt = ((i 0).val : ℤ) then upd (ix1 e) else 0 := by
  show Ideal.hostScatterAdd (addVecDims N E wf) x idx upd i = _
  unfold Ideal.hostScatterAdd
  congr 1
  rw [Finset.sum_filter]
  refine Fintype.sum_equiv idxEquiv1 _ _ (fun j => ?_)
  obtain ⟨e, rfl⟩ : ∃ e, j = ix1 e := ⟨j 0, eq_ix1 j⟩
  exact if_congr (resultIdx?_vec_iff wf idx (ix1 e) i) rfl rfl

/-- The dimension numbers of a segment sum into a one-column matrix `[N, 1]`: updates `[E, 1]`, index column `[E, 1]`. -/
abbrev addRowDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when the `e`-th index, read signed, is `i`'s row. -/
theorem resultIdx?_row_iff {N E w : Nat} (wf : ScatterDims.WF ⟨2, ![N, 1]⟩ ⟨2, ![E, 1]⟩ ⟨2, ![E, 1]⟩ [1] [0] [0] 1)
    (idx : IVec ⟨2, ![E, 1]⟩ w) (j : (⟨2, ![E, 1]⟩ : Shape).Idx) (i : (⟨2, ![N, 1]⟩ : Shape).Idx) :
    (addRowDims N E wf).resultIdx? j idx = some i ↔ (idx (ix2 (j 0) (0 : Fin 1))).toInt = ((i 0).val : ℤ) := by
  have hi0 : (i 0).val < N := idx2_lt0 i
  have hi1 : (i 1).val < 1 := idx2_lt1 i
  have hj1 : (j 1).val < 1 := idx2_lt1 j
  have hstart0 : (addRowDims N E wf).start j idx 0 = (idx (ix2 (j 0) (0 : Fin 1))).toInt := by
    unfold ScatterDims.start
    rw [dif_pos (show (0 : Fin 2) ∈ (addRowDims N E wf).scatterDimsToOperandDims from List.mem_singleton.mpr rfl)]
    have hsi : (addRowDims N E wf).siIdx j ⟨List.idxOf (0 : Fin 2) (addRowDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowDims N E wf).window j 0 = 0 := by
    unfold ScatterDims.window
    rw [dif_neg (by simp [ScatterDims.sKept, Shape.kept])]
  have hstart1 : (addRowDims N E wf).start j idx 1 = 0 := by
    unfold ScatterDims.start
    rw [dif_neg (by simp [ScatterDims.sKept, Shape.kept])]
  have hwin1 : (addRowDims N E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have hh := h 0
      simp only [hstart0, hwin0] at h0 hh
      omega
    · intro he
      funext a
      refine Fin.ext ?_
      match a with
      | ⟨0, _⟩ =>
        show ((addRowDims N E wf).start j idx 0 + ((addRowDims N E wf).window j 0 : ℕ)).toNat = (i 0).val
        rw [hstart0, hwin0]
        omega
      | ⟨1, _⟩ =>
        show ((addRowDims N E wf).start j idx 1 + ((addRowDims N E wf).window j 1 : ℕ)).toNat = (i 1).val
        rw [hstart1, hwin1]
        omega
  · rename_i h
    constructor
    · intro he; exact absurd he (by simp)
    · intro he
      exfalso
      apply h
      intro a
      match a with
      | ⟨0, _⟩ =>
        show 0 ≤ (addRowDims N E wf).start j idx 0 + ((addRowDims N E wf).window j 0 : ℕ)
          ∧ (addRowDims N E wf).start j idx 0 + ((addRowDims N E wf).window j 0 : ℕ) < (N : ℤ)
        rw [hstart0, hwin0]
        omega
      | ⟨1, _⟩ =>
        show 0 ≤ (addRowDims N E wf).start j idx 1 + ((addRowDims N E wf).window j 1 : ℕ)
          ∧ (addRowDims N E wf).start j idx 1 + ((addRowDims N E wf).window j 1 : ℕ) < ((1 : ℕ) : ℤ)
        rw [hstart1, hwin1]
        omega

/-- At exact arithmetic, row `i` of the segment sum into a one-column matrix is the operand's row plus the sum over
    all `e` of "update row `e` if the `e`-th index is `i`'s row, else 0". -/
theorem scatterAdd_row_apply {N E w : Nat} {φ : FTy} (wf : ScatterDims.WF ⟨2, ![N, 1]⟩ ⟨2, ![E, 1]⟩ ⟨2, ![E, 1]⟩ [1] [0] [0] 1)
    (x : FVec Ideal ⟨2, ![N, 1]⟩ φ) (idx : IVec ⟨2, ![E, 1]⟩ w) (upd : FVec Ideal ⟨2, ![E, 1]⟩ φ)
    (i : (⟨2, ![N, 1]⟩ : Shape).Idx) :
    Host.scatterAdd (addRowDims N E wf) x idx upd i
      = x i + ∑ e : Fin E, if (idx (ix2 e (0 : Fin 1))).toInt = ((i 0).val : ℤ) then upd (ix2 e (0 : Fin 1)) else 0 := by
  show Ideal.hostScatterAdd (addRowDims N E wf) x idx upd i = _
  unfold Ideal.hostScatterAdd
  congr 1
  rw [Finset.sum_filter]
  refine Fintype.sum_equiv idxEquivCol _ _ (fun j => ?_)
  obtain ⟨e, rfl⟩ : ∃ e, j = ix2 e (0 : Fin 1) := ⟨j 0, funext fun a => match a with
    | ⟨0, _⟩ => rfl
    | ⟨1, _⟩ => Fin.ext (by have := idx2_lt1 j; show (j 1).val = 0; omega)⟩
  exact if_congr (resultIdx?_row_iff wf idx (ix2 e (0 : Fin 1)) i) rfl rfl

end Scatter

end LibSegmentIdx

end
-- ==== Proof.LibMaskSums.lean ====
/-
  Sums over a finite index set restricted by a mask, as a pairwise ranking loss needs them.

  * A double sum of products u i · v j over the pairs with p i and q j factors into the product of the two
    masked single sums (any commutative semiring): this is what turns a sum over all (positive, negative)
    pairs into a product of two row sums.
  * On the extended reals, multiplying a finite sum by a non-negative REAL constant distributes over the sum,
    whatever the summands (infinite ones included).
  * A one-bit word is 0 or 1; widened to 32 bits it is the natural number 0 or 1, and a natural number below
    2^31 read back from its 32-bit word as a signed integer is itself: so a wrapping 32-bit count of at most
    2^31 - 1 mask bits is the true count.
-/
import Mathlib.Data.EReal.Operations
import Mathlib.Data.BitVec
import Mathlib.Algebra.BigOperators.Ring.Finset
import Mathlib.Algebra.Order.BigOperators.Group.Finset

namespace LibMaskSums

open Finset

/-- The sum of u i · v j over the pairs (i, j) with p i and q j is the product of the sum of the u i with p i
    and the sum of the v j with q j. -/
theorem sum_mask_mul {R : Type*} [CommSemiring R] {ι κ : Type*} [Fintype ι] [Fintype κ] (p : ι → Prop) (q : κ → Prop)
    [DecidablePred p] [DecidablePred q] (u : ι → R) (v : κ → R) :
    ∑ i, ∑ j, (if p i ∧ q j then u i * v j else 0) = (∑ i, if p i then u i else 0) * (∑ j, if q j then v j else 0) := by
  rw [Finset.sum_mul_sum]
  refine Finset.sum_congr rfl fun i _ => Finset.sum_congr rfl fun j _ => ?_
  by_cases hp : p i <;> by_cases hq : q j <;> simp [hp, hq]

/-- A non-negative real factor distributes over a finite sum of extended reals. -/
theorem sum_mul_coe_of_nonneg {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- A one-bit word is 0 or 1. -/
theorem bit_cases (c : BitVec 1) : c = 0#1 ∨ c = 1#1 := by
  by_cases h : c = 1#1
  · exact Or.inr h
  · left
    have := c.isLt
    apply BitVec.eq_of_toNat_eq
    have h' : c.toNat ≠ 1 := fun e => h (BitVec.eq_of_toNat_eq (by simpa using e))
    simp; omega

/-- Flipping a bit (exclusive or with 1) sets it exactly when it was clear. -/
theorem xor_one_eq_one_iff (c : BitVec 1) : c ^^^ 1#1 = 1#1 ↔ ¬ c = 1#1 := by
  rcases bit_cases c with rfl | rfl <;> decide

/-- The complement of a bit is set exactly when the bit was clear. -/
theorem not_eq_one_iff (c : BitVec 1) : ~~~c = 1#1 ↔ ¬ c = 1#1 := by
  rcases bit_cases c with rfl | rfl <;> decide

/-- The conjunction of two bits is set exactly when both are. -/
theorem and_eq_one_iff (c d : BitVec 1) : c &&& d = 1#1 ↔ c = 1#1 ∧ d = 1#1 := by
  rcases bit_cases c with rfl | rfl <;> rcases bit_cases d with rfl | rfl <;> decide

/-- A bit widened to 32 bits is the natural number 0 or 1 as a word. -/
theorem setWidth_bit (c : BitVec 1) : c.setWidth 32 = ((if c = 1#1 then 1 else 0 : ℕ) : BitVec 32) := by
  rcases bit_cases c with rfl | rfl <;> decide

/-- A bit widened to 32 bits and read as a signed integer is 0 or 1. -/
theorem toInt_setWidth_bit (c : BitVec 1) : (c.setWidth 32).toInt = if c = 1#1 then 1 else 0 := by
  rcases bit_cases c with rfl | rfl <;> decide

/-- A natural number below 2^31, stored in a 32-bit word and read back signed, is itself. -/
theorem toInt_natCast_of_lt (n : ℕ) (h : n < 2 ^ 31) : ((n : BitVec 32)).toInt = (n : ℤ) := by
  have hn : ((n : BitVec 32)).toNat = n := by
    rw [BitVec.natCast_eq_ofNat, BitVec.toNat_ofNat]; omega
  rw [BitVec.toInt_eq_toNat_of_lt (by rw [hn]; omega), hn]

/-- The wrapping 32-bit sum, from zero, of the words 0 or 1 marking the pairs (i, j) with p i and q j, read back
    signed, is the number of marked i times the number of marked j, provided the index sets together hold fewer
    than 2^31 pairs. -/
theorem toInt_pair_count {ι κ : Type*} [Fintype ι] [Fintype κ] (p : ι → Prop) (q : κ → Prop)
    [DecidablePred p] [DecidablePred q] (hcard : Fintype.card ι * Fintype.card κ < 2 ^ 31) :
    ((0#32 + ∑ i, ∑ j, ((if p i ∧ q j then 1 else 0 : ℕ) : BitVec 32)).toInt : ℝ)
      = (∑ i, if p i then (1 : ℝ) else 0) * (∑ j, if q j then (1 : ℝ) else 0) := by
  have hb : ∑ i : ι, ∑ j : κ, (if p i ∧ q j then 1 else 0 : ℕ) < 2 ^ 31 := by
    refine lt_of_le_of_lt ?_ hcard
    calc ∑ i : ι, ∑ j : κ, (if p i ∧ q j then 1 else 0 : ℕ)
        ≤ ∑ _i : ι, ∑ _j : κ, 1 :=
          Finset.sum_le_sum fun i _ => Finset.sum_le_sum fun j _ => by split <;> omega
      _ = Fintype.card ι * Fintype.card κ := by simp
  have hw : (0#32 + ∑ i, ∑ j, ((if p i ∧ q j then 1 else 0 : ℕ) : BitVec 32))
      = ((∑ i : ι, ∑ j : κ, (if p i ∧ q j then 1 else 0 : ℕ) : ℕ) : BitVec 32) := by
    rw [show (0#32 : BitVec 32) = 0 from rfl, zero_add]
    push_cast
    rfl
  rw [hw, toInt_natCast_of_lt _ hb]
  have := sum_mask_mul (R := ℝ) p q (fun _ => 1) (fun _ => 1)
  simp only [mul_one] at this
  rw [← this]
  push_cast
  rfl

end LibMaskSums
-- ==== Proof.LibGcnLaw.lean ====
/-
  The algebra of a graph-convolution layer with symmetric degree normalisation, on the extended reals.

  A layer sends node features h to  out[i] = Σ_{e : dst e = i} h[src e] · (s[src e] · s[dst e]) + b,  where s[i] is the
  reciprocal square root of the in-degree of node i. Because every edge summed into row i has dst e = i, the factor
  s[dst e] is the same number t = s[i] for all of them, and it can be taken out of the sum:
      Σ_e a_e · (u_e · t) = (Σ_e a_e · u_e) · t.
  On the extended reals this needs t to be a non-negative REAL (a product with +∞ does not distribute over a sum of mixed
  signs), and nothing of the summands: they may be infinite. When no edge enters row i both sums are empty and both
  sides are 0, whatever t is. When some edge enters row i the degree is a count that is at least 1, and its reciprocal
  square root is a positive real.
-/
import Mathlib.Data.EReal.Operations
import Idealize.ShloMosaic.PureOps.Ideal.Laws
import proofs.«160503_j74345883894179_2_alg».proof.Proof.LibMaskSums

noncomputable section

namespace GcnLaw

open Idealize.ShloMosaic

/-- A sum of ones over the entries that satisfy `P` is a real number, non-negative, and at least 1 as soon as one entry
    satisfies `P`. -/
theorem count_real {ι : Type*} (s : Finset ι) (P : ι → Prop) [DecidablePred P] :
    ∃ r : ℝ, (∑ e ∈ s, if P e then (1 : EReal) else 0) = (r : EReal) ∧ 0 ≤ r ∧ ((∃ e ∈ s, P e) → 1 ≤ r) := by
  classical
  induction s using Finset.induction_on with
  | empty => exact ⟨0, by simp, le_refl _, fun ⟨e, he, _⟩ => absurd he (Finset.notMem_empty e)⟩
  | insert a s ha ih =>
    obtain ⟨r, hr, hr0, hr1⟩ := ih
    rw [Finset.sum_insert ha, hr]
    by_cases hp : P a
    · refine ⟨1 + r, ?_, by linarith, fun _ => by linarith⟩
      rw [if_pos hp, EReal.coe_add, EReal.coe_one]
    · refine ⟨r, ?_, hr0, fun ⟨e, he, hpe⟩ => ?_⟩
      · rw [if_neg hp, zero_add]
      · rcases Finset.mem_insert.mp he with rfl | hs
        · exact absurd hpe hp
        · exact hr1 ⟨e, hs, hpe⟩

/-- The reciprocal square root of a degree that counts at least one edge is a non-negative real. -/
theorem rsqrt_count {ι : Type*} [Fintype ι] (P : ι → Prop) [DecidablePred P] (hex : ∃ e, P e) :
    ∃ c : ℝ, 0 ≤ c ∧ Ideal.rsqrt (0 + ∑ e, if P e then (1 : EReal) else 0) = (c : EReal) := by
  obtain ⟨r, hr, _, hr1⟩ := count_real Finset.univ P
  obtain ⟨e, he⟩ := hex
  have h1 : 1 ≤ r := hr1 ⟨e, Finset.mem_univ e, he⟩
  refine ⟨(Real.sqrt r)⁻¹, inv_nonneg.mpr (Real.sqrt_nonneg r), ?_⟩
  rw [hr, zero_add, Ideal.rsqrt_coe, if_neg (by linarith), if_neg (by linarith)]

/-- THE LAYER LAW. The common factor `t` of the edges summed into one row comes out of the sum: it is a non-negative
    real as soon as the sum has a term, and an empty sum is 0 on both sides. -/
theorem layer_law {ι : Type*} [Fintype ι] (P : ι → Prop) [DecidablePred P] (a u v : ι → EReal) (t b : EReal)
    (hv : ∀ e, P e → v e = t) (ht : (∃ e, P e) → ∃ c : ℝ, 0 ≤ c ∧ t = (c : EReal)) :
    (0 + ∑ e, if P e then a e * u e else 0) * t + b = (0 + ∑ e, if P e then a e * (u e * v e) else 0) + b := by
  congr 1
  rw [zero_add, zero_add]
  by_cases hex : ∃ e, P e
  · obtain ⟨c, hc, rfl⟩ := ht hex
    rw [← LibMaskSums.sum_mul_coe_of_nonneg _ _ c hc]
    refine Finset.sum_congr rfl fun e _ => ?_
    by_cases hp : P e
    · rw [if_pos hp, if_pos hp, hv e hp, mul_assoc]
    · rw [if_neg hp, if_neg hp, zero_mul]
  · have h0 : ∀ e, ¬ P e := fun e hp => hex ⟨e, hp⟩
    rw [Finset.sum_eq_zero (fun e _ => if_neg (h0 e)), Finset.sum_eq_zero (fun e _ => if_neg (h0 e)), zero_mul]

end GcnLaw

end
-- ==== Proof.LibGcnLayer.lean ====
/-
  One graph-convolution layer, in the two arrangements a program may spell it, as functions of whole arrays over any
  extents: N nodes, D features, E edges (self loops included).

  Both take the projected features, gather the row of each edge's source node, and sum the gathered rows into the row of
  the edge's destination node; s is the vector of reciprocal square roots of the in-degrees.
    * the edge-scaled form multiplies each gathered row by the edge's own norm s[src e] · s[dst e] before the sum;
    * the node-scaled form takes features that were already multiplied, row by row, by s (the prescale), sums the
      gathered rows with no per-edge factor, and multiplies row i of the sum by s[i] afterwards (the postscale).
  They agree entry by entry by the layer law (GcnLaw.layer_law): every edge summed into row i has destination i, so the
  destination's factor is the common factor s[i], a non-negative real whenever row i receives an edge at all.
  What the law asks about the index columns and about s is stated as two hypotheses, which a program's own index
  arithmetic and degree computation discharge.
-/
import Idealize.ShloMosaic.Lib.ValueIdx
import Idealize.ShloMosaic.Lib.Pipeline.Value
import Idealize.ShloMosaic.PureOps.Ideal.Laws
import proofs.«160503_j74345883894179_2_alg».proof.Proof.LibRowGather
import proofs.«160503_j74345883894179_2_alg».proof.Proof.LibRowScatter
import proofs.«160503_j74345883894179_2_alg».proof.Proof.LibSegmentIdx
import proofs.«160503_j74345883894179_2_alg».proof.Proof.LibGcnLaw

noncomputable section

namespace GcnLayer

open Idealize.ShloMosaic Idealize.ShloMosaic.ValueIdx

/-! ## Broadcasts along named axes, read at an entry -/

section Layouts

variable {α : Type}

/-- A vector of length n placed as the [n, 1] column reads, at (e, 0), the vector at e. -/
theorem col_of_vec_apply {n : ℕ} (h : (⟨1, ![n]⟩ : Shape).BroadcastsInDim ⟨2, ![n, 1]⟩ (![0] : Fin 1 → Fin 2))
    (x : (⟨1, ![n]⟩ : Shape).Idx → α) (e : Fin n) (z : Fin 1) :
    broadcastInDim ⟨2, ![n, 1]⟩ (![0] : Fin 1 → Fin 2) h x (ix2 e z) = x (ix1 e) := by
  refine broadcastInDim_apply _ h x _ _ fun a => ?_
  match a with
  | ⟨0, _⟩ =>
    show e.val = if n = 1 then 0 else e.val
    split
    · have := e.isLt; omega
    · rfl

/-- An [a, 1] column stretched to [a, b] reads, at (p, q), the column at p. -/
theorem mat_of_col_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ (![0, 1] : Fin 2 → Fin 2) h x (ix2 p q) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

/-- A vector of length b placed as the [1, b] row reads, at (0, q), the vector at q. -/
theorem row_of_vec_apply {b : ℕ} (h : (⟨1, ![b]⟩ : Shape).BroadcastsInDim ⟨2, ![1, b]⟩ (![1] : Fin 1 → Fin 2))
    (x : (⟨1, ![b]⟩ : Shape).Idx → α) (z : Fin 1) (q : Fin b) :
    broadcastInDim ⟨2, ![1, b]⟩ (![1] : Fin 1 → Fin 2) h x (ix2 z q) = x (ix1 q) := by
  refine broadcastInDim_apply _ h x _ _ fun a => ?_
  match a with
  | ⟨0, _⟩ =>
    show q.val = if b = 1 then 0 else q.val
    split
    · have := q.isLt; omega
    · rfl

/-- A [1, b] row stretched to [a, b] reads, at (p, q), the row at q. -/
theorem mat_of_row_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ (![0, 1] : Fin 2 → Fin 2) h x (ix2 p q) = x (ix2 (0 : Fin 1) q) := by
  refine broadcastInDim_apply _ h x _ _ fun ax => ?_
  match ax with
  | ⟨0, _⟩ => rfl
  | ⟨1, _⟩ =>
    show q.val = if b = 1 then 0 else q.val
    split
    · have := q.isLt; omega
    · rfl

/-- A scalar stretched to any shape reads the scalar everywhere. -/
theorem splat_apply {t : Shape} (h : (⟨0, ![]⟩ : Shape).BroadcastsInDim t (![] : Fin 0 → Fin t.rank))
    (x : (⟨0, ![]⟩ : Shape).Idx → α) (j : t.Idx) :
    broadcastInDim t (![] : Fin 0 → Fin t.rank) h x j = x (fun a => a.elim0) :=
  broadcastInDim_apply _ h x j _ fun a => a.elim0

end Layouts

/-! ## The two arrangements of a layer -/

/-- The shape relations the operations of a layer ask of its extents. -/
structure Extents (N D E : ℕ) : Prop where
  hN : 0 < N
  wfG : GatherDims.WF ⟨2, ![N, D]⟩ ⟨2, ![E, 1]⟩ ⟨2, ![E, D]⟩ [1] [0] [] [0] [] 1 ![1, D]
  wfS : ScatterDims.WF ⟨2, ![N, D]⟩ ⟨2, ![E, 1]⟩ ⟨2, ![E, D]⟩ [1] [0] [0] 1
  wfV : GatherDims.WF ⟨1, ![N]⟩ ⟨2, ![E, 1]⟩ ⟨1, ![E]⟩ [] [0] [] [0] [] 1 ![1]
  b0 : (⟨0, ![]⟩ : Shape).BroadcastsInDim ⟨2, ![N, D]⟩ (![] : Fin 0 → Fin 2)
  bNcol : (⟨1, ![N]⟩ : Shape).BroadcastsInDim ⟨2, ![N, 1]⟩ (![0] : Fin 1 → Fin 2)
  bNmat : (⟨2, ![N, 1]⟩ : Shape).BroadcastsInDim ⟨2, ![N, D]⟩ (![0, 1] : Fin 2 → Fin 2)
  bEcol : (⟨1, ![E]⟩ : Shape).BroadcastsInDim ⟨2, ![E, 1]⟩ (![0] : Fin 1 → Fin 2)
  bEmat : (⟨2, ![E, 1]⟩ : Shape).BroadcastsInDim ⟨2, ![E, D]⟩ (![0, 1] : Fin 2 → Fin 2)
  bDrow : (⟨1, ![D]⟩ : Shape).BroadcastsInDim ⟨2, ![1, D]⟩ (![1] : Fin 1 → Fin 2)
  bDmat : (⟨2, ![1, D]⟩ : Shape).BroadcastsInDim ⟨2, ![N, D]⟩ (![0, 1] : Fin 2 → Fin 2)

variable {N D E : ℕ}

/-- The bias vector as the [N, D] matrix of its copies. -/
def biasMat (f : Extents N D E) (b : FVec Ideal ⟨1, ![D]⟩ .f32) : FVec Ideal ⟨2, ![N, D]⟩ .f32 :=
  broadcastInDim ⟨2, ![N, D]⟩ (![0, 1] : Fin 2 → Fin 2) f.bDmat (broadcastInDim ⟨2, ![1, D]⟩ (![1] : Fin 1 → Fin 2) f.bDrow b)

/-- The zero matrix the segment sum starts from. -/
def zeroMat (f : Extents N D E) : FVec Ideal ⟨2, ![N, D]⟩ .f32 :=
  broadcastInDim ⟨2, ![N, D]⟩ (![] : Fin 0 → Fin 2) f.b0 (constant (F := Ideal) ⟨0, ![]⟩ .f32 0x00000000#32)

/-- THE NODE-SCALED FORM: prescaled features `hs`, gathered by source, summed by destination, then each row times s. -/
def nodeScaled (f : Extents N D E) (hs : FVec Ideal ⟨2, ![N, D]⟩ .f32) (sv : FVec Ideal ⟨1, ![N]⟩ .f32)
    (idxS idxD : IVec ⟨2, ![E, 1]⟩ 32) (b : FVec Ideal ⟨1, ![D]⟩ .f32) : FVec Ideal ⟨2, ![N, D]⟩ .f32 :=
  addf (mulf (Host.scatterAdd (LibRowScatter.addRowsDims N D E f.wfS) (zeroMat f) idxD
        (Host.gather (LibRowGather.rowDims N D E f.wfG) hs idxS))
      (broadcastInDim ⟨2, ![N, D]⟩ (![0, 1] : Fin 2 → Fin 2) f.bNmat
        (broadcastInDim ⟨2, ![N, 1]⟩ (![0] : Fin 1 → Fin 2) f.bNcol sv)))
    (biasMat f b)

/-- THE EDGE-SCALED FORM: features `h`, gathered by source, each gathered row times its edge's norm
    s[src e] · s[dst e], summed by destination. -/
def edgeScaled (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32) : FVec Ideal ⟨2, ![N, D]⟩ .f32 :=
  addf (Host.scatterAdd (LibRowScatter.addRowsDims N D E f.wfS) (zeroMat f) idxD
      (mulf (Host.gather (LibRowGather.rowDims N D E f.wfG) h idxS)
        (broadcastInDim ⟨2, ![E, D]⟩ (![0, 1] : Fin 2 → Fin 2) f.bEmat
          (broadcastInDim ⟨2, ![E, 1]⟩ (![0] : Fin 1 → Fin 2) f.bEcol
            (mulf (Host.gather (LibSegmentIdx.takeVecDims N E f.wfV) sv idxS)
              (Host.gather (LibSegmentIdx.takeVecDims N E f.wfV) sv idxND))))))
    (biasMat f b)

/-- THE TWO FORMS AGREE, given that the prescaled features are the features times s row by row (`hhs`), that an edge
    summed into row i gathers its destination's factor at row i (`hA`: the index column the sum reads and the one the
    factor is gathered by name the same node), and that s at a row receiving an edge is a non-negative real (`hB`). -/
theorem nodeScaled_eq_edgeScaled (f : Extents N D E) (h hs : FVec Ideal ⟨2, ![N, D]⟩ .f32) (sv : FVec Ideal ⟨1, ![N]⟩ .f32)
    (idxS idxD idxND : IVec ⟨2, ![E, 1]⟩ 32) (b : FVec Ideal ⟨1, ![D]⟩ .f32)
    (hhs : ∀ (i : Fin N) (j : Fin D), hs (ix2 i j) = h (ix2 i j) * sv (ix1 i))
    (hA : ∀ (e : Fin E) (i : Fin N), (idxD (ix2 e (0 : Fin 1))).toInt = ((i : ℕ) : ℤ) →
      LibRowGather.clampRow N f.hN (idxND (ix2 e (0 : Fin 1))) = i)
    (hB : ∀ i : Fin N, (∃ e : Fin E, (idxD (ix2 e (0 : Fin 1))).toInt = ((i : ℕ) : ℤ)) →
      ∃ c : ℝ, 0 ≤ c ∧ sv (ix1 i) = (c : EReal)) :
    nodeScaled f hs sv idxS idxD b = edgeScaled f h sv idxS idxD idxND b := by
  funext idx
  obtain ⟨i, j, rfl⟩ : ∃ (i : Fin N) (j : Fin D), idx = ix2 i j := ⟨idx 0, idx 1, eq_ix2 idx⟩
  unfold nodeScaled edgeScaled
  rw [addf_apply, addf_apply, mulf_apply, LibRowScatter.scatterAdd_rows_apply, LibRowScatter.scatterAdd_rows_apply,
    mat_of_col_apply, col_of_vec_apply]
  have hz : zeroMat f (ix2 i j) = 0 := by
    unfold zeroMat
    rw [splat_apply, constant_apply, Ideal.ofBits_zero_f32]
  have hL : ∀ e : Fin E, Host.gather (LibRowGather.rowDims N D E f.wfG) hs idxS (ix2 e j)
      = h (ix2 (LibRowGather.clampRow N f.hN (idxS (ix2 e (0 : Fin 1)))) j)
        * sv (ix1 (LibRowGather.clampRow N f.hN (idxS (ix2 e (0 : Fin 1))))) := fun e => by
    rw [LibRowGather.gather_rows_apply f.hN, hhs]
  have hR : ∀ e : Fin E, (mulf (Host.gather (LibRowGather.rowDims N D E f.wfG) h idxS)
        (broadcastInDim ⟨2, ![E, D]⟩ (![0, 1] : Fin 2 → Fin 2) f.bEmat
          (broadcastInDim ⟨2, ![E, 1]⟩ (![0] : Fin 1 → Fin 2) f.bEcol
            (mulf (Host.gather (LibSegmentIdx.takeVecDims N E f.wfV) sv idxS)
              (Host.gather (LibSegmentIdx.takeVecDims N E f.wfV) sv idxND))))) (ix2 e j)
      = h (ix2 (LibRowGather.clampRow N f.hN (idxS (ix2 e (0 : Fin 1)))) j)
        * (sv (ix1 (LibRowGather.clampRow N f.hN (idxS (ix2 e (0 : Fin 1)))))
          * sv (ix1 (LibRowGather.clampRow N f.hN (idxND (ix2 e (0 : Fin 1)))))) := fun e => by
    rw [mulf_apply, LibRowGather.gather_rows_apply f.hN, mat_of_col_apply, col_of_vec_apply, mulf_apply,
      LibSegmentIdx.gather_vec_apply f.hN, LibSegmentIdx.gather_vec_apply f.hN]
    rfl
  rw [hz]
  simp only [hL, hR]
  exact GcnLaw.layer_law (fun e : Fin E => (idxD (ix2 e (0 : Fin 1))).toInt = ((i : ℕ) : ℤ))
    (fun e => h (ix2 (LibRowGather.clampRow N f.hN (idxS (ix2 e (0 : Fin 1)))) j))
    (fun e => sv (ix1 (LibRowGather.clampRow N f.hN (idxS (ix2 e (0 : Fin 1))))))
    (fun e => sv (ix1 (LibRowGather.clampRow N f.hN (idxND (ix2 e (0 : Fin 1))))))
    (sv (ix1 i)) (biasMat f b (ix2 i j))
    (fun e he => by rw [hA e i he]) (hB i)

end GcnLayer

end
-- ==== Proof.LibRealEntries.lean ====
/-
  Extended reals that are real numbers.

  At exact arithmetic a float is an extended real. Distributing a factor over a difference, or a difference over a sum,
  is sound only where no infinity meets its opposite, so a value proof that rearranges such terms first shows that the
  numbers involved are images of real numbers. The images of the reals are closed under sums, products, differences,
  maxima, choices and finite sums; and on them a weighted sum of differences is the difference of the weighted sums.
-/
import Mathlib.Data.EReal.Operations
import Mathlib.Algebra.BigOperators.Ring.Finset

noncomputable section

namespace RealEntries

/-- An extended real that is the image of a real number. -/
def IsR (x : EReal) : Prop := ∃ r : ℝ, x = (r : EReal)

theorem isR_coe (r : ℝ) : IsR (r : EReal) := ⟨r, rfl⟩
theorem isR_zero : IsR 0 := ⟨0, EReal.coe_zero.symm⟩
theorem isR_one : IsR 1 := ⟨1, EReal.coe_one.symm⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.sub {x y : EReal} (hx : IsR x) (hy : IsR y) : IsR (x - y) := by
  obtain ⟨a, rfl⟩ := hx; obtain ⟨b, rfl⟩ := hy
  exact ⟨a - b, (EReal.coe_sub a b).symm⟩

theorem IsR.max {x y : EReal} (hx : IsR x) (hy : IsR y) : IsR (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem IsR.ite {p : Prop} [Decidable p] {x y : EReal} (hx : IsR x) (hy : IsR y) : IsR (if p then x else y) := by
  split
  · exact hx
  · exact hy

theorem IsR.sum {ι : Type*} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact (h a (Finset.mem_insert_self a s)).add (ih fun i hi => h i (Finset.mem_insert_of_mem hi))

/-- A finite sum of images of reals is the image of the sum. -/
theorem coe_sum {ι : Type*} (s : Finset ι) (f : ι → ℝ) : ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- On real entries, a weighted sum of differences is the difference of the two weighted sums. -/
theorem sum_sub_mul {ι : Type*} [Fintype ι] (a b w : ι → EReal) (ha : ∀ k, IsR (a k)) (hb : ∀ k, IsR (b k))
    (hw : ∀ k, IsR (w k)) : ∑ k, (a k - b k) * w k = ∑ k, a k * w k - ∑ k, b k * w k := by
  choose a' ha' using ha
  choose b' hb' using hb
  choose w' hw' using hw
  simp only [ha', hb', hw', ← EReal.coe_sub, ← EReal.coe_mul, coe_sum]
  rw [← Finset.sum_sub_distrib]
  congr 1
  exact Finset.sum_congr rfl fun k _ => sub_mul _ _ _

end RealEntries

end
-- ==== Proof.LibGcnSelf.lean ====
/-
  A graph-convolution layer with self loops, in the two arrangements a program may spell it, over any extents:
  N nodes, D features, E edges.

  With s the vector of the nodes' factors (the reciprocal square roots of the degrees, self loop counted), both send
  projected features h to
      out[i, j] = Σ_{e : dst e = i} h[src e, j] · s[src e] · s[dst e]  +  h[i, j] · s[i]²  +  b[j].
    * The edge-scaled form gathers rows of h by source, multiplies each gathered row by the edge's own norm
      s[src e] · s[dst e], and sums the rows by destination.
    * The node-scaled form first multiplies h, row by row, by s, gathers and sums with no per-edge factor, and
      multiplies row i of the sum by s[i] afterwards.
  They agree entry by entry: every edge summed into row i has destination i, so the destination's factor is the common
  factor s[i], which comes out of the sum because it is a non-negative real (the layer law); the summands may be anything.
  When moreover h, s and b have real entries, so has the layer's result.
-/
import Idealize.ShloMosaic.Lib.ValueIdx
import Idealize.ShloMosaic.Lib.Pipeline.Value
import Idealize.ShloMosaic.PureOps.Ideal.Laws
import proofs.«160503_j74345883894179_2_alg».proof.Proof.LibRowGather
import proofs.«160503_j74345883894179_2_alg».proof.Proof.LibRowScatter
import proofs.«160503_j74345883894179_2_alg».proof.Proof.LibSegmentIdx
import proofs.«160503_j74345883894179_2_alg».proof.Proof.LibGcnLaw
import proofs.«160503_j74345883894179_2_alg».proof.Proof.LibGcnLayer
import proofs.«160503_j74345883894179_2_alg».proof.Proof.LibRealEntries

noncomputable section

namespace GcnSelf

open Idealize.ShloMosaic Idealize.ShloMosaic.ValueIdx GcnLayer RealEntries

variable {N D E : ℕ}

/-- A vector over the nodes as the [N, D] matrix whose row i is D copies of its entry i. -/
def rowsOf (f : Extents N D E) (sv : FVec Ideal ⟨1, ![N]⟩ .f32) : FVec Ideal ⟨2, ![N, D]⟩ .f32 :=
  broadcastInDim ⟨2, ![N, D]⟩ (![0, 1] : Fin 2 → Fin 2) f.bNmat (broadcastInDim ⟨2, ![N, 1]⟩ (![0] : Fin 1 → Fin 2) f.bNcol sv)

theorem rowsOf_apply (f : Extents N D E) (sv : FVec Ideal ⟨1, ![N]⟩ .f32) (i : Fin N) (j : Fin D) :
    rowsOf f sv (ix2 i j) = sv (ix1 i) := by
  unfold rowsOf
  rw [mat_of_col_apply, col_of_vec_apply]

theorem biasMat_apply (f : Extents N D E) (b : FVec Ideal ⟨1, ![D]⟩ .f32) (i : Fin N) (j : Fin D) :
    biasMat f b (ix2 i j) = b (ix1 j) := by
  unfold biasMat
  rw [mat_of_row_apply, row_of_vec_apply]

theorem zeroMat_apply (f : Extents N D E) (i : Fin N) (j : Fin D) : zeroMat f (ix2 i j) = 0 := by
  unfold zeroMat
  rw [splat_apply, constant_apply, Ideal.ofBits_zero_f32]

/-- THE NODE-SCALED FORM with the self-loop term. -/
def nodeSelf (f : Extents N D E) (h : FVec Ideal ⟨2, ![N, D]⟩ .f32) (sv : FVec Ideal ⟨1, ![N]⟩ .f32)
    (idxS idxD : IVec ⟨2, ![E, 1]⟩ 32) (b : FVec Ideal ⟨1, ![D]⟩ .f32) : FVec Ideal ⟨2, ![N, D]⟩ .f32 :=
  addf (addf (mulf (rowsOf f sv)
        (Host.scatterAdd (LibRowScatter.addRowsDims N D E f.wfS) (zeroMat f) idxD
          (Host.gather (LibRowGather.rowDims N D E f.wfG) (mulf h (rowsOf f sv)) idxS)))
      (mulf h (rowsOf f (mulf sv sv))))
    (biasMat f b)

/-- THE EDGE-SCALED FORM with the self-loop term. -/
def edgeSelf (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32) : FVec Ideal ⟨2, ![N, D]⟩ .f32 :=
  addf (addf (Host.scatterAdd (LibRowScatter.addRowsDims N D E f.wfS) (zeroMat f) idxD
        (mulf (Host.gather (LibRowGather.rowDims N D E f.wfG) h idxS)
          (broadcastInDim ⟨2, ![E, D]⟩ (![0, 1] : Fin 2 → Fin 2) f.bEmat
            (broadcastInDim ⟨2, ![E, 1]⟩ (![0] : Fin 1 → Fin 2) f.bEcol
              (mulf (Host.gather (LibSegmentIdx.takeVecDims N E f.wfV) sv idxS)
                (Host.gather (LibSegmentIdx.takeVecDims N E f.wfV) sv idxND))))))
      (mulf h (rowsOf f (mulf sv sv))))
    (biasMat f b)

/-- The row an edge's index column selects. -/
abbrev rowAt (f : Extents N D E) (idx : IVec ⟨2, ![E, 1]⟩ 32) (e : Fin E) : Fin N :=
  LibRowGather.clampRow N f.hN (idx (ix2 e (0 : Fin 1)))

/-- The node-scaled form at an entry. -/
theorem nodeSelf_apply (f : Extents N D E) (h : FVec Ideal ⟨2, ![N, D]⟩ .f32) (sv : FVec Ideal ⟨1, ![N]⟩ .f32)
    (idxS idxD : IVec ⟨2, ![E, 1]⟩ 32) (b : FVec Ideal ⟨1, ![D]⟩ .f32) (i : Fin N) (j : Fin D) :
    nodeSelf f h sv idxS idxD b (ix2 i j)
      = sv (ix1 i) * (0 + ∑ e : Fin E, if (idxD (ix2 e (0 : Fin 1))).toInt = ((i : ℕ) : ℤ)
            then h (ix2 (rowAt f idxS e) j) * sv (ix1 (rowAt f idxS e)) else 0)
        + h (ix2 i j) * (sv (ix1 i) * sv (ix1 i)) + b (ix1 j) := by
  unfold nodeSelf
  rw [addf_apply, addf_apply, mulf_apply, mulf_apply, rowsOf_apply, rowsOf_apply, biasMat_apply,
    LibRowScatter.scatterAdd_rows_apply, zeroMat_apply, mulf_apply]
  congr 3
  refine congrArg (fun t => (0 : EReal) + t) (Finset.sum_congr rfl fun e _ => ?_)
  rw [LibRowGather.gather_rows_apply f.hN, mulf_apply, rowsOf_apply]

/-- The edge-scaled form at an entry. -/
theorem edgeSelf_apply (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32) (i : Fin N) (j : Fin D) :
    edgeSelf f h sv idxS idxD idxND b (ix2 i j)
      = (0 + ∑ e : Fin E, if (idxD (ix2 e (0 : Fin 1))).toInt = ((i : ℕ) : ℤ)
            then h (ix2 (rowAt f idxS e) j) * (sv (ix1 (rowAt f idxS e)) * sv (ix1 (rowAt f idxND e))) else 0)
        + h (ix2 i j) * (sv (ix1 i) * sv (ix1 i)) + b (ix1 j) := by
  unfold edgeSelf
  rw [addf_apply, addf_apply, mulf_apply, rowsOf_apply, biasMat_apply,
    LibRowScatter.scatterAdd_rows_apply, zeroMat_apply, mulf_apply]
  congr 3
  refine Finset.sum_congr rfl fun e _ => if_congr Iff.rfl ?_ rfl
  rw [mulf_apply, LibRowGather.gather_rows_apply f.hN, mat_of_col_apply, col_of_vec_apply, mulf_apply,
    LibSegmentIdx.gather_vec_apply f.hN, LibSegmentIdx.gather_vec_apply f.hN]
  rfl

/-- THE TWO FORMS AGREE, given that an edge summed into row i gathers its destination's factor at row i (`hA`) and that
    every node's factor is a non-negative real (`hB`). -/
theorem nodeSelf_eq_edgeSelf (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32)
    (hA : ∀ (e : Fin E) (i : Fin N), (idxD (ix2 e (0 : Fin 1))).toInt = ((i : ℕ) : ℤ) → rowAt f idxND e = i)
    (hB : ∀ i : Fin N, ∃ c : ℝ, 0 ≤ c ∧ sv (ix1 i) = (c : EReal)) :
    nodeSelf f h sv idxS idxD b = edgeSelf f h sv idxS idxD idxND b := by
  funext idx
  obtain ⟨i, j, rfl⟩ : ∃ (i : Fin N) (j : Fin D), idx = ix2 i j := ⟨idx 0, idx 1, eq_ix2 idx⟩
  rw [nodeSelf_apply, edgeSelf_apply]
  congr 2
  have key := GcnLaw.layer_law (fun e : Fin E => (idxD (ix2 e (0 : Fin 1))).toInt = ((i : ℕ) : ℤ))
    (fun e => h (ix2 (rowAt f idxS e) j)) (fun e => sv (ix1 (rowAt f idxS e))) (fun e => sv (ix1 (rowAt f idxND e)))
    (sv (ix1 i)) 0 (fun e he => by rw [hA e i he]) (fun _ => hB i)
  rw [add_zero, add_zero] at key
  rw [mul_comm]
  exact key

/-- With real entries in, the edge-scaled form has real entries. -/
theorem edgeSelf_isR (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32)
    (hh : ∀ idx, IsR (h idx)) (hs : ∀ idx, IsR (sv idx)) (hb : ∀ idx, IsR (b idx)) (idx : (⟨2, ![N, D]⟩ : Shape).Idx) :
    IsR (edgeSelf f h sv idxS idxD idxND b idx) := by
  obtain ⟨i, j, rfl⟩ : ∃ (i : Fin N) (j : Fin D), idx = ix2 i j := ⟨idx 0, idx 1, eq_ix2 idx⟩
  rw [edgeSelf_apply]
  refine ((isR_zero.add (IsR.sum _ _ fun e _ => IsR.ite ((hh _).mul ((hs _).mul (hs _))) isR_zero)).add
    ((hh _).mul ((hs _).mul (hs _)))).add (hb _)

end GcnSelf

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.LibGcnIndex.lean ====
/-
  The graph's index columns and degrees, over any extents: N nodes, E edges (self loops included).

  A program spells a node index three ways: the raw signed word the segment sum reads (a word outside [0, N) lands
  nowhere), the word with a negative value wrapped by + N, and that word clamped into [0, N − 1] by the gather. For an
  edge that the segment sum adds into row i the raw word IS i, with 0 ≤ i < N, so the wrap leaves it alone and the clamp
  leaves it alone: the gathered factor of the edge's destination is the factor of row i.

  The in-degree of node i is the segment sum of ones over the destination column, a count of edges, and the node's
  factor is its reciprocal square root. At a node that some edge enters the count is at least 1 and the factor is a
  non-negative real number.
-/
import Idealize.ShloMosaic.Lib.ValueIdx
import Idealize.ShloMosaic.Lib.Pipeline.Value
import Idealize.ShloMosaic.PureOps.Ideal.Laws
import proofs.«160503_j74345883894179_2_alg».proof.Proof.LibRowGather
import proofs.«160503_j74345883894179_2_alg».proof.Proof.LibSegmentIdx
import proofs.«160503_j74345883894179_2_alg».proof.Proof.LibReciprocalScale
import proofs.«160503_j74345883894179_2_alg».proof.Proof.LibGcnLaw
import proofs.«160503_j74345883894179_2_alg».proof.Proof.LibGcnLayer

noncomputable section

namespace GcnIndex

open Idealize.ShloMosaic Idealize.ShloMosaic.ValueIdx

/-- The shape relations the index and degree operations ask of the extents. -/
structure Extents (N E : ℕ) : Prop where
  hN : 0 < N
  bE0 : (⟨0, ![]⟩ : Shape).BroadcastsInDim ⟨1, ![E]⟩ (![] : Fin 0 → Fin 1)
  bN0 : (⟨0, ![]⟩ : Shape).BroadcastsInDim ⟨1, ![N]⟩ (![] : Fin 0 → Fin 1)
  bEcol : (⟨1, ![E]⟩ : Shape).BroadcastsInDim ⟨2, ![E, 1]⟩ (![0] : Fin 1 → Fin 2)
  wfSV : ScatterDims.WF ⟨1, ![N]⟩ ⟨2, ![E, 1]⟩ ⟨1, ![E]⟩ [] [0] [0] 1

variable {N E : ℕ}

/-- A vector of node indices as the [E, 1] index column. -/
def col (f : Extents N E) (v : IVec ⟨1, ![E]⟩ 32) : IVec ⟨2, ![E, 1]⟩ 32 :=
  broadcastInDim ⟨2, ![E, 1]⟩ (![0] : Fin 1 → Fin 2) f.bEcol v

/-- A vector of node indices with negative entries wrapped by adding the word `nw` (the node count). -/
def wrap (f : Extents N E) (nw : BitVec 32) (v : IVec ⟨1, ![E]⟩ 32) : IVec ⟨1, ![E]⟩ 32 :=
  select (cmpi .slt v (broadcastInDim ⟨1, ![E]⟩ (![] : Fin 0 → Fin 1) f.bE0 (constantI ⟨0, ![]⟩ 32 0#32)))
    (addi v (broadcastInDim ⟨1, ![E]⟩ (![] : Fin 0 → Fin 1) f.bE0 (constantI ⟨0, ![]⟩ 32 nw))) v

/-- The in-degrees: the segment sum of ones over the destination column, from zero. -/
def deg (f : Extents N E) (d : IVec ⟨1, ![E]⟩ 32) : FVec Ideal ⟨1, ![N]⟩ .f32 :=
  Host.scatterAdd (F := Ideal) (LibSegmentIdx.addVecDims N E f.wfSV)
    (broadcastInDim ⟨1, ![N]⟩ (![] : Fin 0 → Fin 1) f.bN0 (constant (F := Ideal) ⟨0, ![]⟩ .f32 0x00000000#32))
    (col f d)
    (broadcastInDim ⟨1, ![E]⟩ (![] : Fin 0 → Fin 1) f.bE0 (constant (F := Ideal) ⟨0, ![]⟩ .f32 0x3F800000#32))

/-- The nodes' factors: the reciprocal square roots of the in-degrees. -/
def invSqrtDeg (f : Extents N E) (d : IVec ⟨1, ![E]⟩ 32) : FVec Ideal ⟨1, ![N]⟩ .f32 :=
  Host.rsqrt (F := Ideal) (deg f d)

/-- A word whose signed value is not negative is left alone by the wrap. -/
theorem wrap_apply_of_nonneg (f : Extents N E) (nw : BitVec 32) (d : IVec ⟨1, ![E]⟩ 32) (e : Fin E)
    (h : 0 ≤ (d (ix1 e)).toInt) : wrap f nw d (ix1 e) = d (ix1 e) := by
  unfold wrap
  show Scalar.select (IntOp.cmpi .slt (d (ix1 e))
      (broadcastInDim ⟨1, ![E]⟩ (![] : Fin 0 → Fin 1) f.bE0 (constantI ⟨0, ![]⟩ 32 0#32) (ix1 e))) _ (d (ix1 e)) = d (ix1 e)
  rw [GcnLayer.splat_apply]
  show Scalar.select (BitVec.ofBool ((d (ix1 e)).slt 0#32)) _ (d (ix1 e)) = d (ix1 e)
  have hs : (d (ix1 e)).slt 0#32 = false := by
    unfold BitVec.slt
    simp only [BitVec.toInt_zero, decide_eq_false_iff_not, not_lt]
    exact h
  rw [hs]
  rfl

/-- THE DESTINATION'S ROW: for an edge the segment sum adds into row i, the wrapped and clamped destination is i. -/
theorem wrap_clamp (f : Extents N E) (nw : BitVec 32) (d : IVec ⟨1, ![E]⟩ 32) (e : Fin E) (i : Fin N)
    (h : (col f d (ix2 e (0 : Fin 1))).toInt = ((i : ℕ) : ℤ)) :
    LibRowGather.clampRow N f.hN (col f (wrap f nw d) (ix2 e (0 : Fin 1))) = i := by
  unfold col at h ⊢
  rw [GcnLayer.col_of_vec_apply] at h ⊢
  rw [wrap_apply_of_nonneg f nw d e (by rw [h]; exact Int.natCast_nonneg _)]
  apply Fin.ext
  show min (d (ix1 e)).toInt.toNat (N - 1) = i.val
  rw [h, Int.toNat_natCast]
  have := i.isLt
  omega

/-- THE FACTOR IS REAL at a node that some edge enters. -/
theorem invSqrtDeg_real (f : Extents N E) (d : IVec ⟨1, ![E]⟩ 32) (i : Fin N)
    (hex : ∃ e : Fin E, (col f d (ix2 e (0 : Fin 1))).toInt = ((i : ℕ) : ℤ)) :
    ∃ c : ℝ, 0 ≤ c ∧ invSqrtDeg f d (ix1 i) = (c : EReal) := by
  obtain ⟨c, hc, hcv⟩ := GcnLaw.rsqrt_count (fun e : Fin E => (col f d (ix2 e (0 : Fin 1))).toInt = ((i : ℕ) : ℤ)) hex
  refine ⟨c, hc, ?_⟩
  rw [← hcv]
  show Ideal.rsqrt (deg f d (ix1 i)) = _
  congr 1
  unfold deg
  rw [LibSegmentIdx.scatterAdd_vec_apply, GcnLayer.splat_apply, constant_apply, Ideal.ofBits_zero_f32]
  congr 1
  refine Finset.sum_congr rfl fun e _ => ?_
  rw [GcnLayer.splat_apply, constant_apply, LibReciprocalScale.ofBits_one_f32]
  rfl

end GcnIndex

end
-- ==== Proof.LibSelfLoopLaw.lean ====
/-
  The algebra of one graph-convolution layer with a self loop, in the arrangement that scales by node.

  Write t for the factor of node i (the reciprocal square root of its degree), a_e for the feature gathered along
  edge e, u_e for the factor of the edge's source and v_e for the factor of its destination, and x for the node's own
  feature. Summing over the edges e that enter node i:

      t · ( Σ_e a_e · u_e  +  x · t )  +  b   =   Σ_e a_e · (u_e · v_e)  +  x · (t · t)  +  b.

  Every edge in the sum has destination i, so v_e = t; the factor t then comes out of the sum and distributes over the
  two terms inside the bracket. On the extended reals a product distributes over a sum when the factor is a
  non-negative REAL, whatever the summands are; that is all this law asks of t, and nothing of a, u, x or b.

  The degree of a node is one (its self loop) plus the number of edges that enter it: a real number that is at least
  1, so its reciprocal square root is a non-negative real at EVERY node, entered by an edge or not.
-/
import Mathlib.Data.EReal.Operations
import Idealize.ShloMosaic.PureOps.Ideal.Laws
import proofs.«160503_j74345883894179_2_alg».proof.Proof.LibGcnLaw

noncomputable section

namespace SelfLoopLayer

open Idealize.ShloMosaic

/-- The reciprocal square root of "one plus a count" is a non-negative real. -/
theorem rsqrt_succ_count {ι : Type*} [Fintype ι] (P : ι → Prop) [DecidablePred P] :
    ∃ c : ℝ, 0 ≤ c ∧ Ideal.rsqrt ((0 + ∑ e, if P e then (1 : EReal) else 0) + 1) = (c : EReal) := by
  obtain ⟨r, hr, hr0, _⟩ := GcnLaw.count_real Finset.univ P
  refine ⟨(Real.sqrt (r + 1))⁻¹, inv_nonneg.mpr (Real.sqrt_nonneg _), ?_⟩
  rw [hr, zero_add, ← EReal.coe_one, ← EReal.coe_add, Ideal.rsqrt_coe, if_neg (by linarith), if_neg (by linarith)]

/-- THE LAW OF THE LAYER: scaling by node and scaling by edge agree at an entry, the node's factor `t` being a
    non-negative real. -/
theorem node_eq_edge {ι : Type*} [Fintype ι] (P : ι → Prop) [DecidablePred P] (a u v : ι → EReal) (t x b : EReal)
    (hv : ∀ e, P e → v e = t) (ht : ∃ c : ℝ, 0 ≤ c ∧ t = (c : EReal)) :
    t * ((0 + ∑ e, if P e then a e * u e else 0) + x * t) + b
      = ((0 + ∑ e, if P e then a e * (u e * v e) else 0) + x * (t * t)) + b := by
  have key := GcnLaw.layer_law P a u v t 0 hv (fun _ => ht)
  rw [add_zero, add_zero] at key
  obtain ⟨c, hc, rfl⟩ := ht
  rw [EReal.left_distrib_of_nonneg_of_ne_top (EReal.coe_nonneg.mpr hc) (EReal.coe_ne_top c), mul_comm (c : EReal) (0 + _), key,
    mul_left_comm]

end SelfLoopLayer

end
-- ==== Proof.LayerBridge.lean ====
/-
  One layer of the kernel is one layer of the reference, as whole arrays, for ANY features, weights, bias and edges.

  At node i and feature j, with H = h · w the projected features and s the vector of node factors, the kernel's layer is
      max( s[i] · ( Σ_{e : dst e = i} H[src e, j] · s[src e]  +  H[i, j] · s[i] )  +  b[j], 0 )
  and the reference's is
      max( Σ_{e : dst e = i} H[src e, j] · (s[src e] · s[dst e])  +  H[i, j] · (s[i] · s[i])  +  b[j], 0 ).
  The sums run over the edges whose raw destination word is i; the source rows are read through the wrap of negative
  words and the gather's clamp on both sides alike, and for an edge in the sum the reference's wrapped and clamped
  destination is i itself. The factor s[i] is the reciprocal square root of one plus a count, a non-negative real, so it
  distributes over the bracket and comes out of the sum: the law of the layer.
-/
import proofs.«160503_j74345883894179_2_alg».proof.Proof.KernelStages
import proofs.«160503_j74345883894179_2_alg».proof.Proof.Gen.ReferenceIdeal.Read
import proofs.«160503_j74345883894179_2_alg».proof.Proof.LibGcnSelf
import proofs.«160503_j74345883894179_2_alg».proof.Proof.LibGcnIndex
import proofs.«160503_j74345883894179_2_alg».proof.Proof.LibSelfLoopLaw
import Idealize.ShloMosaic.Lib.ValueLayout

set_option maxRecDepth 16384

noncomputable section

namespace Cert.LayerBridge

open Cert.KernelIdeal Cert.KernelIdeal.Gen Cert.KernelIdeal.Stages Cert.KernelIdeal.Tiles
open Idealize.ShloMosaic Idealize.ShloMosaic.ValueIdx

/-- The shape relations of a layer at this program's extents: 50000 nodes, 128 features, 800000 edges. -/
theorem layerExtents : GcnLayer.Extents 50000 128 800000 where
  hN := by decide
  wfG := gather_S50000x128_S800000x1_S800000x128_1_0_n_n_0_1_1128.wf
  wfS := scatter_S50000x128_S800000x1_S800000x128_1_0_0_1.wf
  wfV := by decide
  b0 := bcast_S_S50000x128
  bNcol := by decide
  bNmat := by decide
  bEcol := bcast_S800000_S800000x1_0
  bEmat := by decide
  bDrow := by decide
  bDmat := by decide

/-- The shape relations of the index columns and the degrees. -/
theorem indexExtents : GcnIndex.Extents 50000 800000 where
  hN := by decide
  bE0 := bcast_S_S800000
  bN0 := bcast_S_S50000
  bEcol := bcast_S800000_S800000x1_0
  wfSV := scatter_S50000_S800000x1_S800000_n_0_0_1.wf

/-- The factor column at (r, 0) is the factor vector at r. -/
theorem factorCol_apply (ei : IVec S2x800000 32) (r : Fin 50000) :
    factorCol ei (ix2 r (0 : Fin 1)) = factorOf ei (ix1 r) := by
  unfold factorCol
  refine shapeCast_apply _ _ _ _ ?_
  rw [Shape.rowMajor_val_one, Shape.rowMajor_val_two]
  show r.val = r.val * 1 + 0
  omega

/-- The bias row at (0, j) is the bias vector at j. -/
theorem biasRow_apply (b : FVec Ideal S128 .f32) (j : Fin 128) : biasRow b (ix2 (0 : Fin 1) j) = b (ix1 j) := by
  unfold biasRow
  exact shapeCast_a_1a_apply b _ 0 j

/-- The scaled projection at (r, j): the projected feature times the node's factor. -/
theorem scaledProj_apply (h : FVec Ideal S50000x128 .f32) (w : FVec Ideal S128x128 .f32) (d : FVec Ideal S50000x1 .f32)
    (r : Fin 50000) (j : Fin 128) :
    scaledProj h w d (ix2 r j) = (∑ k : Fin 128, h (ix2 r k) * w (ix2 k j)) * d (ix2 r (0 : Fin 1)) := rfl

/-- The host's projection h · w at (r, j) is the sum over the contracted feature. -/
theorem projected_apply (h : FVec Ideal S50000x128 .f32) (w : FVec Ideal S128x128 .f32) (r : Fin 50000) (j : Fin 128) :
    Cert.ReferenceIdeal.Read.val_main_v16 (F := Ideal) h w (ix2 r j) = ∑ k : Fin 128, h (ix2 r k) * w (ix2 k j) := by
  rw [Cert.ReferenceIdeal.Read.val_main_v16_apply]
  refine Finset.sum_congr rfl fun k _ => ?_
  have el : Cert.ReferenceIdeal.Read.lidx_main_v16 (ix2 r j) k = ix2 r k :=
    funext fun a => by match a with | ⟨0, _⟩ => rfl | ⟨1, _⟩ => rfl
  have er : Cert.ReferenceIdeal.Read.ridx_main_v16 (ix2 r j) k = ix2 k j :=
    funext fun a => by match a with | ⟨0, _⟩ => rfl | ⟨1, _⟩ => rfl
  rw [el, er]

/-- The row of the features an edge's source column selects. -/
abbrev srcRow (ei : IVec S2x800000 32) (e : Fin 800000) : Fin 50000 :=
  GcnSelf.rowAt layerExtents (colOf (wrapOf (srcOf ei))) e

/-- The segment sum at (i, j): the gathered rows of the edges whose raw destination word is i. -/
theorem segSum_apply (hp : FVec Ideal S50000x128 .bf16) (ei : IVec S2x800000 32) (i : Fin 50000) (j : Fin 128) :
    segSum hp ei (ix2 i j)
      = 0 + ∑ e : Fin 800000, if (colOf (dstOf ei) (ix2 e (0 : Fin 1))).toInt = ((i : ℕ) : ℤ)
          then hp (ix2 (srcRow ei e) j) else 0 := by
  unfold segSum
  show Host.scatterAdd (LibRowScatter.addRowsDims 50000 128 800000 layerExtents.wfS) (GcnLayer.zeroMat layerExtents)
      (colOf (dstOf ei))
      (extf .f32 (Host.gather (LibRowGather.rowDims 50000 128 800000 layerExtents.wfG) hp (colOf (wrapOf (srcOf ei)))) bitsLt_bf16_f32)
      (ix2 i j) = _
  rw [LibRowScatter.scatterAdd_rows_apply, GcnSelf.zeroMat_apply]
  refine congrArg (fun t => (0 : EReal) + t) (Finset.sum_congr rfl fun e _ => ?_)
  rw [extf_apply, LibRowGather.gather_rows_apply layerExtents.hN]

/-- The host's reciprocal square root acts entry by entry. -/
theorem hostRsqrt_apply {s : Shape} (x : FVec Ideal s .f32) (i : s.Idx) :
    Host.rsqrt (F := Ideal) x i = Ideal.rsqrt (x i) := rfl

/-- The program's record for the degree's segment sum is the segment sum into a vector. -/
theorem degreeDims_eq :
    scatter_S50000_S800000x1_S800000_n_0_0_1 = LibSegmentIdx.addVecDims 50000 800000 indexExtents.wfSV := rfl

/-- A NODE'S FACTOR IS A NON-NEGATIVE REAL: the reciprocal square root of one plus the number of edges entering it. -/
theorem factor_real (ei : IVec S2x800000 32) (i : Fin 50000) :
    ∃ c : ℝ, 0 ≤ c ∧ factorOf ei (ix1 i) = (c : EReal) := by
  obtain ⟨c, hc, hcv⟩ := SelfLoopLayer.rsqrt_succ_count
    (fun e : Fin 800000 => (colOf (wrapOf (dstOf ei)) (ix2 e (0 : Fin 1))).toInt = ((i : ℕ) : ℤ))
  refine ⟨c, hc, ?_⟩
  rw [← hcv]
  unfold factorOf
  rw [hostRsqrt_apply, addf_apply, degreeDims_eq, LibSegmentIdx.scatterAdd_vec_apply, GcnLayer.splat_apply, constant_apply,
    Ideal.ofBits_zero_f32, GcnLayer.splat_apply, constant_apply, LibReciprocalScale.ofBits_one_f32]
  refine congrArg (fun t => Ideal.rsqrt ((0 : EReal) + t + 1)) (Finset.sum_congr rfl fun e _ => ?_)
  rw [GcnLayer.splat_apply, constant_apply, LibReciprocalScale.ofBits_one_f32]

/-- ONE LAYER OF THE KERNEL IS THE EDGE-SCALED LAYER of the projected features, clamped at zero. -/
theorem layer_eq (h : FVec Ideal S50000x128 .f32) (w : FVec Ideal S128x128 .f32) (b : FVec Ideal S128 .f32)
    (ei : IVec S2x800000 32) :
    layerOf h w b ei
      = maximumf (GcnSelf.edgeSelf layerExtents (Cert.ReferenceIdeal.Read.val_main_v16 (F := Ideal) h w) (factorOf ei)
          (colOf (wrapOf (srcOf ei))) (colOf (dstOf ei)) (colOf (wrapOf (dstOf ei))) b) (GcnLayer.zeroMat layerExtents) := by
  funext idx
  obtain ⟨i, j, rfl⟩ : ∃ (i : Fin 50000) (j : Fin 128), idx = ix2 i j := ⟨idx 0, idx 1, eq_ix2 idx⟩
  rw [maximumf_apply, GcnSelf.edgeSelf_apply, GcnSelf.zeroMat_apply]
  show max (factorCol ei (ix2 i (0 : Fin 1))
      * (segSum (scaledProj h w (factorCol ei)) ei (ix2 i j) + scaledProj h w (factorCol ei) (ix2 i j))
      + biasRow b (ix2 (0 : Fin 1) j)) 0 = _
  rw [factorCol_apply, biasRow_apply, segSum_apply, scaledProj_apply, factorCol_apply, ← projected_apply]
  have hsum : ∀ e : Fin 800000, scaledProj h w (factorCol ei) (ix2 (srcRow ei e) j)
      = Cert.ReferenceIdeal.Read.val_main_v16 (F := Ideal) h w (ix2 (srcRow ei e) j) * factorOf ei (ix1 (srcRow ei e)) := fun e => by
    rw [scaledProj_apply, factorCol_apply, ← projected_apply]
  simp only [hsum]
  refine congrArg (fun t => max t (0 : EReal)) ?_
  exact SelfLoopLayer.node_eq_edge
    (fun e : Fin 800000 => (colOf (dstOf ei) (ix2 e (0 : Fin 1))).toInt = ((i : ℕ) : ℤ))
    (fun e => Cert.ReferenceIdeal.Read.val_main_v16 (F := Ideal) h w (ix2 (srcRow ei e) j))
    (fun e => factorOf ei (ix1 (srcRow ei e)))
    (fun e => factorOf ei (ix1 (GcnSelf.rowAt layerExtents (colOf (wrapOf (dstOf ei))) e)))
    (factorOf ei (ix1 i)) (Cert.ReferenceIdeal.Read.val_main_v16 (F := Ideal) h w (ix2 i j)) (b (ix1 j))
    (fun e he => by
      rw [show GcnSelf.rowAt layerExtents (colOf (wrapOf (dstOf ei))) e = i from
        GcnIndex.wrap_clamp indexExtents 50000#32 (dstOf ei) e i he])
    (factor_real ei i)

end Cert.LayerBridge

end
-- ==== Proof.ResultBridge.lean ====
/-
  The reference's result is the kernel's result, as functions of the eight arguments.

  Layer by layer: the reference's first and second layers are, term for term, the edge-scaled layer of the projected
  features clamped at zero, which is the kernel's layer (the layer comparison). The classifier: the kernel multiplies by
  the weights padded with 88 zero columns, adds the bias padded with 88 zeros, and keeps columns 0 … 39; at a kept
  column j < 40 the padded weights and bias read the unpadded ones, so the entry is Σ_k h2[i, k] · wc[k, j] + bc[j] on
  both sides.
-/
import proofs.«160503_j74345883894179_2_alg».proof.Proof.LayerBridge
import Idealize.ShloMosaic.Lib.KernelVsHost

set_option maxRecDepth 16384

noncomputable section

namespace Cert.ResultBridge

open Cert.KernelIdeal Cert.KernelIdeal.Gen Cert.KernelIdeal.Stages Cert.KernelIdeal.Tiles Cert.LayerBridge
open Idealize.ShloMosaic Idealize.ShloMosaic.ValueIdx

/-- The reference's first layer is the kernel's first layer. -/
theorem first_layer (x0 : FVec Ideal S50000x128 .f32) (x1 : IVec S2x800000 32) (x2 : FVec Ideal S128x128 .f32)
    (x3 : FVec Ideal S128 .f32) :
    Cert.ReferenceIdeal.Read.val_main_v53 (F := Ideal) x0 x1 x2 x3 = layerOf x0 x2 x3 x1 := by
  rw [layer_eq]
  rfl

/-- The reference's second layer is the kernel's second layer. -/
theorem second_layer (x0 : FVec Ideal S50000x128 .f32) (x1 : IVec S2x800000 32) (x2 : FVec Ideal S128x128 .f32)
    (x3 : FVec Ideal S128 .f32) (x4 : FVec Ideal S128x128 .f32) (x5 : FVec Ideal S128 .f32) :
    Cert.ReferenceIdeal.Read.val_main_v91 (F := Ideal) x0 x1 x2 x3 x4 x5 = layerOf (layerOf x0 x2 x3 x1) x4 x5 x1 := by
  rw [layer_eq, ← first_layer]
  rfl

/-- The padded weights at a kept column are the weights. -/
theorem paddedWeights_apply (wc : FVec Ideal S128x40 .f32) (k : Fin 128) (j : Fin 40) (hj : j.val < 128) :
    paddedWeights wc (ix2 k (⟨j.val, hj⟩ : Fin 128)) = wc (ix2 k j) := by
  unfold paddedWeights
  refine pad_apply_of_inside _ _ _ wc _ _ _ _ (ix2 k j) fun a => ?_
  match a with
  | ⟨0, _⟩ =>
    show k.val = 0 + k.val * (0 + 1)
    omega
  | ⟨1, _⟩ =>
    show j.val = 0 + j.val * (0 + 1)
    omega

/-- The padded bias row at a kept column is the bias. -/
theorem paddedBias_apply (bc : FVec Ideal S40 .f32) (j : Fin 40) (hj : j.val < 128) :
    paddedBias bc (ix2 (0 : Fin 1) (⟨j.val, hj⟩ : Fin 128)) = bc (ix1 j) := by
  unfold paddedBias
  rw [shapeCast_a_1a_apply]
  refine pad_apply_of_inside _ _ _ bc _ _ _ _ (ix1 j) fun a => ?_
  match a with
  | ⟨0, _⟩ =>
    show j.val = 0 + j.val * (0 + 1)
    omega

/-- The affine map at an entry. -/
theorem affine_apply (X : FVec Ideal S50000x128 .f32) (w : FVec Ideal S128x128 .f32) (b : FVec Ideal S1x128 .f32)
    (i : Fin 50000) (q : Fin 128) :
    affine X w b (ix2 i q) = (∑ k : Fin 128, X (ix2 i k) * w (ix2 k q)) + b (ix2 (0 : Fin 1) q) := rfl

/-- The kernel's classifier at a kept column (i, j), for ANY second-layer output X: the padding is never read. -/
theorem kernel_classifier_apply (X : FVec Ideal S50000x128 .f32) (x6 : FVec Ideal S128x40 .f32) (x7 : FVec Ideal S40 .f32)
    (i : Fin 50000) (j : Fin 40) :
    extractStridedSlice S50000x40 ![0, 0] (affine X (paddedWeights x6) (paddedBias x7)) slices_S50000x128_S50000x40_0_0 (ix2 i j)
      = (∑ k : Fin 128, X (ix2 i k) * x6 (ix2 k j)) + x7 (ix1 j) := by
  have hj : j.val < 128 := by have := j.isLt; omega
  rw [extractStridedSlice_apply ![0, 0] _ slices_S50000x128_S50000x40_0_0 (ix2 i j) (ix2 i (⟨j.val, hj⟩ : Fin 128))
    (fun a => by
      match a with
      | ⟨0, _⟩ => show i.val = 0 + i.val; omega
      | ⟨1, _⟩ => show j.val = 0 + j.val; omega)]
  rw [affine_apply, paddedBias_apply]
  simp only [paddedWeights_apply]

/-- The reference's classifier at (i, j), for ANY second-layer output L. -/
theorem reference_classifier_apply (L : FVec Ideal S50000x128 .f32) (x6 : FVec Ideal S128x40 .f32) (x7 : FVec Ideal S40 .f32)
    (i : Fin 50000) (j : Fin 40) :
    (∑ k : Fin 128, L (Cert.ReferenceIdeal.Read.lidx_main_v92 (ix2 i j) k) * x6 (Cert.ReferenceIdeal.Read.ridx_main_v92 (ix2 i j) k))
      + x7 (Cert.ReferenceIdeal.Read.idx_main_v93 (Cert.ReferenceIdeal.Read.idx_main_v94 (ix2 i j)))
      = (∑ k : Fin 128, L (ix2 i k) * x6 (ix2 k j)) + x7 (ix1 j) := by
  have el : ∀ k : Fin 128, Cert.ReferenceIdeal.Read.lidx_main_v92 (ix2 i j) k = ix2 i k := fun k =>
    funext fun a => by match a with | ⟨0, _⟩ => rfl | ⟨1, _⟩ => rfl
  have er : ∀ k : Fin 128, Cert.ReferenceIdeal.Read.ridx_main_v92 (ix2 i j) k = ix2 k j := fun k =>
    funext fun a => by match a with | ⟨0, _⟩ => rfl | ⟨1, _⟩ => rfl
  have eb : Cert.ReferenceIdeal.Read.idx_main_v93 (Cert.ReferenceIdeal.Read.idx_main_v94 (ix2 i j)) = ix1 j :=
    funext fun a => by match a with | ⟨0, _⟩ => rfl
  simp only [el, er, eb]

/-- THE TWO RESULTS ARE ONE FUNCTION of the eight arguments. -/
theorem result_eq (x0 : FVec Ideal S50000x128 .f32) (x1 : IVec S2x800000 32) (x2 : FVec Ideal S128x128 .f32)
    (x3 : FVec Ideal S128 .f32) (x4 : FVec Ideal S128x128 .f32) (x5 : FVec Ideal S128 .f32) (x6 : FVec Ideal S128x40 .f32)
    (x7 : FVec Ideal S40 .f32) :
    Cert.ReferenceIdeal.Read.val_main_v95 (F := Ideal) x0 x1 x2 x3 x4 x5 x6 x7 = resultOf x0 x1 x2 x3 x4 x5 x6 x7 := by
  funext idx
  obtain ⟨i, j, rfl⟩ : ∃ (i : Fin 50000) (j : Fin 40), idx = ix2 i j := ⟨idx 0, idx 1, eq_ix2 idx⟩
  refine Eq.trans ?_ (kernel_classifier_apply (layerOf (layerOf x0 x2 x3 x1) x4 x5 x1) x6 x7 i j).symm
  refine Eq.trans ?_ (reference_classifier_apply (layerOf (layerOf x0 x2 x3 x1) x4 x5 x1) x6 x7 i j)
  rw [Cert.ReferenceIdeal.Read.val_main_v95_apply, Ideal.addf_def, Cert.ReferenceIdeal.Read.val_main_v92_apply,
    Cert.ReferenceIdeal.Read.val_main_v94_apply, Cert.ReferenceIdeal.Read.val_main_v93_apply, second_layer]

end Cert.ResultBridge

end
-- ==== Proof.lean ====
/-
  A two-layer graph convolution with a linear classifier, on 50000 nodes, 800000 edges, 128 features and 40 classes: the
  kernel against its reference, at exact arithmetic on the extended reals.

  Both programs count, for each node, the edges entering it (negative destination words wrapped by the node count), add
  one for the self loop, and take the reciprocal square root s. A layer of the REFERENCE sends projected features
  H = h · w to
      max( Σ_{e : dst e = i} H[src e, j] · (s[src e] · s[dst e]) + H[i, j] · (s[i] · s[i]) + b[j], 0 ),
  scaling each gathered row by its edge's norm. A layer of the KERNEL scales by node instead: one pipelined region writes
  H[r, ·] · s[r], the host gathers those rows by source and sums them by destination, and a second region forms
      max( s[i] · ( Σ_{e : dst e = i} H[src e, j] · s[src e] + H[i, j] · s[i] ) + b[j], 0 ).
  Every edge in the sum has destination i, so the destination's factor is the common factor s[i]; it is a non-negative
  real (the reciprocal square root of a count that is at least one), which is exactly what lets a factor distribute over
  a sum and leave it on the extended reals, whatever the summands are. So the two layers agree entry by entry, for any
  features. The kernel's classifier pads the weights and the bias with zero columns to 128 and keeps the first 40
  columns of the product; at a kept column the padding is never read.

  The kernel's value is read off the run of its five regions and the host stretches between them: each region's output
  array is one function of the arrays the region found (its 25 row blocks are restrictions of that function and cover
  the array), and each host stretch is its operations' composition. The reference's value is its run's composed term.
  Neither frame opens the precondition, and the comparison needs no finiteness: only the realness of the node factors,
  which holds for every edge list.
-/
import proofs.«160503_j74345883894179_2_alg».proof.Defs
import proofs.«160503_j74345883894179_2_alg».proof.Proof.Gen.Kernel
import proofs.«160503_j74345883894179_2_alg».proof.Proof.Gen.Kernel.Frame
import proofs.«160503_j74345883894179_2_alg».proof.Proof.Gen.KernelIdeal
import proofs.«160503_j74345883894179_2_alg».proof.Proof.Gen.KernelIdeal.Frame
import proofs.«160503_j74345883894179_2_alg».proof.Proof.Gen.ReferenceIdeal
import proofs.«160503_j74345883894179_2_alg».proof.Proof.Gen.Pre_finite_inputs
import proofs.«160503_j74345883894179_2_alg».proof.Proof.Gen.ReferenceIdeal.Run
import proofs.«160503_j74345883894179_2_alg».proof.Proof.Gen.ReferenceIdeal.Read
import proofs.«160503_j74345883894179_2_alg».proof.Proof.KernelValue
import proofs.«160503_j74345883894179_2_alg».proof.Proof.ResultBridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at exact arithmetic. -/
theorem preserves : Cert.preserves_Kernel_KernelIdeal := trivial

/-- From memories agreeing on the arguments both programs end with the same result: the kernel's result buffer at its
    result function of the arguments, the reference's at its composed term, and the two are one function. -/
theorem algebraic : Cert.algebraic_KernelIdeal_ReferenceIdeal := by
  intro m ρ m' ρ' _ hagree
  refine ⟨fun c => Cert.KernelIdeal.Stages.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Stages.at14_result m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v95_eq, Cert.ResultBridge.result_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
